-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v30)) (v4 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v30) = v3 c
          ∧ r.2.mem ((c.tc : Thread Cert.KernelIdeal.nD Cert.KernelIdeal.τ).loc Cert.KernelIdeal.main_v6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_v34) = v3 c
          ∧ r.2.mem ((c.tc : Thread Cert.ReferenceIdeal.nD Cert.ReferenceIdeal.τ).loc Cert.ReferenceIdeal.main_v4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16777216 : Shape := ⟨2, ![4, 16777216]⟩
abbrev S16777216 : Shape := ⟨1, ![16777216]⟩
abbrev S_ : Shape := ⟨0, ![]⟩

class Facts : Prop where
  bcast_S_S4x16777216 : S_.BroadcastsInDim S4x16777216 (![] : Fin 0 → Fin S4x16777216.rank)
  reducesTo_S4x16777216_S_d0_1 : S4x16777216.ReducesTo [0, 1] S_
  h_S_ : 0 < S_.numel
  bcast_S_S16777216 : S_.BroadcastsInDim S16777216 (![] : Fin 0 → Fin S16777216.rank)
  reducesTo_S16777216_S_d0 : S16777216.ReducesTo [0] S_
  reducesTo_S_S_d : S_.ReducesTo [] S_

variable [Facts]

def fn_part1 {F : FTy → Type} [FloatOps F] (main_arg4 : FVec F S_ .f32) (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  let main_v18 : FVec F S_ .f32 := Host.absf main_arg4
  let main_cst_6 : FVec F S_ .f32 := constant S_ .f32 0x7F800000#32
  let main_v19 : IVec S_ 1 := cmpf .olt main_v18 main_cst_6
  let main_c_7 : IVec S_ 1 := constantI S_ 1 1#1
  let main_v20 : IVec S_ 1 := (fun x v => Host.reduce IntOp.andi x v reducesTo_S_S_d h_S_) main_v19 main_c_7
  let main_v21 : IVec S_ 1 := andi main_v17 main_v20
  main_v21

def fn {F : FTy → Type} [FloatOps F] (main_arg0 : FVec F S4x16777216 .f32) (main_arg1 : FVec F S16777216 .f32) (main_arg2 : FVec F S16777216 .f32) (main_arg3 : FVec F S_ .f32) (main_arg4 : FVec F S_ .f32) : IVec S_ 1 :=
  let main_v0 : FVec F S4x16777216 .f32 := Host.absf main_arg0
  let main_cst : FVec F S_ .f32 := constant S_ .f32 0x7F800000#32
  let main_v1 : FVec F S4x16777216 .f32 := broadcastInDim S4x16777216 ![] bcast_S_S4x16777216 main_cst
  let main_v2 : IVec S4x16777216 1 := cmpf .olt main_v0 main_v1
  let main_c : IVec S_ 1 := constantI S_ 1 1#1
  let main_v3 : IVec S_ 1 := (fun x v => Host.reduce IntOp.andi x v reducesTo_S4x16777216_S_d0_1 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  let main_v9 : FVec F S16777216 .f32 := Host.absf main_arg2
  let main_cst_2 : FVec F S_ .f32 := constant S_ .f32 0x7F800000#32
  let main_v10 : FVec F S16777216 .f32 := broadcastInDim S16777216 ![] bcast_S_S16777216 main_cst_2
  let main_v11 : IVec S16777216 1 := cmpf .olt main_v9 main_v10
  let main_c_3 : IVec S_ 1 := constantI S_ 1 1#1
  let main_v12 : IVec S_ 1 := (fun x v => Host.reduce IntOp.andi x v reducesTo_S16777216_S_d0 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_arg4 main_v13 main_v15 main_c_5
-- ==== Kernel.lean ====
abbrev S4x16777216 : Shape := ⟨2, ![4, 16777216]⟩
abbrev S16777216 : Shape := ⟨1, ![16777216]⟩
abbrev S_ : Shape := ⟨0, ![]⟩
abbrev S1x16777216 : Shape := ⟨2, ![1, 16777216]⟩
abbrev S1x1 : Shape := ⟨2, ![1, 1]⟩
abbrev S4x524288 : Shape := ⟨2, ![4, 524288]⟩
abbrev S1x524288 : Shape := ⟨2, ![1, 524288]⟩
abbrev S524288 : Shape := ⟨1, ![524288]⟩
abbrev S1x1x524288 : Shape := ⟨3, ![1, 1, 524288]⟩
abbrev S1 : Shape := ⟨1, ![1]⟩
abbrev S1x1x1 : Shape := ⟨3, ![1, 1, 1]⟩

abbrev nBuf : Space → Nat
  | .hbm => 59
  | .vmem => 12
  | .smem => 0
  | _ => 0

abbrev bufTy : (tb : Table) → Fin (tcTables nBuf tb) → BufTy
  | .hbm, ⟨0, _⟩ => ⟨S4x16777216, .f32⟩
  | .hbm, ⟨1, _⟩ => ⟨S16777216, .f32⟩
  | .hbm, ⟨2, _⟩ => ⟨S16777216, .f32⟩
  | .hbm, ⟨3, _⟩ => ⟨S_, .f32⟩
  | .hbm, ⟨4, _⟩ => ⟨S_, .f32⟩
  | .hbm, ⟨5, _⟩ => ⟨S1x16777216, .f32⟩
  | .hbm, ⟨6, _⟩ => ⟨S1x16777216, .f32⟩
  | .hbm, ⟨7, _⟩ => ⟨S1x16777216, .f32⟩
  | .hbm, ⟨8, _⟩ => ⟨S1x16777216, .f32⟩
  | .hbm, ⟨9, _⟩ => ⟨S1x1, .f32⟩
  | .hbm, ⟨10, _⟩ => ⟨S1x1, .f32⟩
  | .hbm, ⟨11, _⟩ => ⟨S16777216, .f32⟩
  | .hbm, ⟨12, _⟩ => ⟨S16777216, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .local _ .vmem, ⟨0, _⟩ => ⟨S4x524288, .f32⟩
  | .local _ .vmem, ⟨1, _⟩ => ⟨S4x524288, .f32⟩
  | .local _ .vmem, ⟨2, _⟩ => ⟨S1x524288, .f32⟩
  | .local _ .vmem, ⟨3, _⟩ => ⟨S1x524288, .f32⟩
  | .local _ .vmem, ⟨4, _⟩ => ⟨S1x524288, .f32⟩
  | .local _ .vmem, ⟨5, _⟩ => ⟨S1x524288, .f32⟩
  | .local _ .vmem, ⟨6, _⟩ => ⟨S1x524288, .f32⟩
  | .local _ .vmem, ⟨7, _⟩ => ⟨S1x524288, .f32⟩
  | .local _ .vmem, ⟨8, _⟩ => ⟨S1x524288, .f32⟩
  | .local _ .vmem, ⟨9, _⟩ => ⟨S1x524288, .f32⟩
  | .local _ .vmem, ⟨10, _⟩ => ⟨S1x1, .f32⟩
  | .local _ .vmem, ⟨11, _⟩ => ⟨S1x1, .f32⟩
  | _, _ => ⟨S4x16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_cst_7 : Ref sig .tc := ⟨.hbm, 35, rfl⟩
abbrev main_cst_8 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v19 : Ref sig .tc := ⟨.hbm, 40, rfl⟩
abbrev main_v20 : Ref sig .tc := ⟨.hbm, 41, rfl⟩
abbrev main_cst_9 : Ref sig .tc := ⟨.hbm, 42, rfl⟩
abbrev main_v21 : Ref sig .tc := ⟨.hbm, 43, rfl⟩
abbrev main_cst_10 : Ref sig .tc := ⟨.hbm, 44, rfl⟩
abbrev main_v22 : Ref sig .tc := ⟨.hbm, 45, rfl⟩
abbrev main_cst_11 : Ref sig .tc := ⟨.hbm, 46, rfl⟩
abbrev main_v23 : Ref sig .tc := ⟨.hbm, 47, rfl⟩
abbrev main_cst_12 : Ref sig .tc := ⟨.hbm, 48, rfl⟩
abbrev main_v24 : Ref sig .tc := ⟨.hbm, 49, rfl⟩
abbrev main_cst_13 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_14 : Ref sig .tc := ⟨.hbm, 54, rfl⟩
abbrev main_v28 : Ref sig .tc := ⟨.hbm, 55, rfl⟩
abbrev main_v29 : Ref sig .tc := ⟨.hbm, 56, rfl⟩
abbrev main_cst_15 : Ref sig .tc := ⟨.hbm, 57, rfl⟩
abbrev main_v30 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x524288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x524288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x524288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x524288 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x524288 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  shapeCasts_S16777216_S1x16777216 : S16777216.ShapeCasts S1x16777216
  inb_S1x1_S1x1_0_0 : ∀ a, (![0, 0] : Fin 2 → Nat) a + S1x1.size a ≤ S1x1.size a
  h_S1x1 : 0 < S1x1.numel
  inb_S4x524288_S4x524288_0_0 : ∀ a, (![0, 0] : Fin 2 → Nat) a + S4x524288.size a ≤ S4x524288.size a
  h_S4x524288 : 0 < S4x524288.numel
  reduces_S4x524288_S524288 : S4x524288.Reduces [0] S524288
  shapeCasts_S524288_S1x524288 : S524288.ShapeCasts S1x524288
  inb_S1x524288_S1x524288_0_0 : ∀ a, (![0, 0] : Fin 2 → Nat) a + S1x524288.size a ≤ S1x524288.size a
  h_S1x524288 : 0 < S1x524288.numel
  shapeCasts_S1x524288_S1x524288 : S1x524288.ShapeCasts S1x524288
  shapeCasts_S1x1_S1x1 : S1x1.ShapeCasts S1x1
  shapeCasts_S1x524288_S1x1x524288 : S1x524288.ShapeCasts S1x1x524288
  reduces_S1x1x524288_S1 : S1x1x524288.Reduces [1, 2] S1
  shapeCasts_S1_S1x1x1 : S1.ShapeCasts S1x1x1
  inpos_S1x1x1_p0_0_0 : ∀ a, (![0, 0, 0] : Fin 3 → Nat) a < S1x1x1.size a
  shapeCasts_S1x16777216_S16777216 : S1x16777216.ShapeCasts S16777216
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x524288.size a ≤ S4x16777216.size a
  hwx0_0 : ∀ i : grid0.Coords, EltTy.bits .f32 = 32 ∨ (Rect.block (s := S4x16777216) S4x524288.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x524288.size a ≤ S1x16777216.size a
  hwx0_1 : ∀ i : grid0.Coords, EltTy.bits .f32 = 32 ∨ (Rect.block (s := S1x16777216) S1x524288.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x524288.size a ≤ S1x16777216.size a
  hwx0_2 : ∀ i : grid0.Coords, EltTy.bits .f32 = 32 ∨ (Rect.block (s := S1x16777216) S1x524288.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x524288.size a ≤ S1x16777216.size a
  hwx0_3 : ∀ i : grid0.Coords, EltTy.bits .f32 = 32 ∨ (Rect.block (s := S1x16777216) S1x524288.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x524288.size a ≤ S1x16777216.size a
  hwx0_4 : ∀ i : grid0.Coords, EltTy.bits .f32 = 32 ∨ (Rect.block (s := S1x16777216) S1x524288.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

abbrev win0_0 : Pipeline.Window sig grid0 :=
  Pipeline.Window.ofSpec (Memref.whole main_arg0) S4x524288.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x524288.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x524288.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x524288.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x524288.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_2) S1x1.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_3) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x16777216 : Shape := ⟨2, ![4, 16777216]⟩
abbrev S16777216 : Shape := ⟨1, ![16777216]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S4x16777216, .f32⟩
  | .hbm, ⟨1, _⟩ => ⟨S16777216, .f32⟩
  | .hbm, ⟨2, _⟩ => ⟨S16777216, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S16777216, .f32⟩
  | .hbm, ⟨7, _⟩ => ⟨S_, .f32⟩
  | .hbm, ⟨8, _⟩ => ⟨S16777216, .f32⟩
  | .hbm, ⟨9, _⟩ => ⟨S16777216, .f32⟩
  | .hbm, ⟨10, _⟩ => ⟨S16777216, .f32⟩
  | .hbm, ⟨11, _⟩ => ⟨S16777216, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S16777216, .f32⟩
  | .hbm, ⟨19, _⟩ => ⟨S16777216, .f32⟩
  | .hbm, ⟨20, _⟩ => ⟨S_, .f32⟩
  | .hbm, ⟨21, _⟩ => ⟨S16777216, .f32⟩
  | .hbm, ⟨22, _⟩ => ⟨S16777216, .f32⟩
  | .hbm, ⟨23, _⟩ => ⟨S16777216, .f32⟩
  | .hbm, ⟨24, _⟩ => ⟨S16777216, .f32⟩
  | .hbm, ⟨25, _⟩ => ⟨S16777216, .f32⟩
  | .hbm, ⟨26, _⟩ => ⟨S16777216, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S4x16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_call1_v0 : Ref sig .tc := ⟨.hbm, 26, rfl⟩
abbrev main_call1_cst : Ref sig .tc := ⟨.hbm, 27, rfl⟩
abbrev main_call1_v1 : Ref sig .tc := ⟨.hbm, 28, rfl⟩
abbrev main_v13 : Ref sig .tc := ⟨.hbm, 29, rfl⟩
abbrev main_cst_4 : Ref sig .tc := ⟨.hbm, 30, rfl⟩
abbrev main_v14 : Ref sig .tc := ⟨.hbm, 31, rfl⟩
abbrev main_cst_5 : Ref sig .tc := ⟨.hbm, 32, rfl⟩
abbrev main_v15 : Ref sig .tc := ⟨.hbm, 33, rfl⟩
abbrev main_cst_6 : Ref sig .tc := ⟨.hbm, 34, rfl⟩
abbrev main_v16 : Ref sig .tc := ⟨.hbm, 35, rfl⟩
abbrev main_cst_7 : Ref sig .tc := ⟨.hbm, 36, rfl⟩
abbrev main_v17 : Ref sig .tc := ⟨.hbm, 37, rfl⟩
abbrev main_v18 : Ref sig .tc := ⟨.hbm, 38, rfl⟩
abbrev main_cst_8 : Ref sig .tc := ⟨.hbm, 39, rfl⟩
abbrev main_v19 : Ref sig .tc := ⟨.hbm, 40, rfl⟩
abbrev main_v20 : Ref sig .tc := ⟨.hbm, 41, rfl⟩
abbrev main_cst_9 : Ref sig .tc := ⟨.hbm, 42, rfl⟩
abbrev main_v21 : Ref sig .tc := ⟨.hbm, 43, rfl⟩
abbrev main_cst_10 : Ref sig .tc := ⟨.hbm, 44, rfl⟩
abbrev main_v22 : Ref sig .tc := ⟨.hbm, 45, rfl⟩
abbrev main_cst_11 : Ref sig .tc := ⟨.hbm, 46, rfl⟩
abbrev main_cst_12 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_v23 : Ref sig .tc := ⟨.hbm, 51, rfl⟩
abbrev main_v24 : Ref sig .tc := ⟨.hbm, 52, rfl⟩
abbrev main_cst_13 : Ref sig .tc := ⟨.hbm, 53, rfl⟩
abbrev main_v25 : Ref sig .tc := ⟨.hbm, 54, rfl⟩
abbrev main_cst_14 : Ref sig .tc := ⟨.hbm, 55, rfl⟩
abbrev main_v26 : Ref sig .tc := ⟨.hbm, 56, rfl⟩
abbrev main_cst_15 : Ref sig .tc := ⟨.hbm, 57, rfl⟩
abbrev main_v27 : Ref sig .tc := ⟨.hbm, 58, rfl⟩
abbrev main_cst_16 : Ref sig .tc := ⟨.hbm, 59, rfl⟩
abbrev main_v28 : Ref sig .tc := ⟨.hbm, 60, rfl⟩
abbrev main_cst_17 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_cst_18 : Ref sig .tc := ⟨.hbm, 65, rfl⟩
abbrev main_v32 : Ref sig .tc := ⟨.hbm, 66, rfl⟩
abbrev main_v33 : Ref sig .tc := ⟨.hbm, 67, rfl⟩
abbrev main_cst_19 : Ref sig .tc := ⟨.hbm, 68, rfl⟩
abbrev main_v34 : Ref sig .tc := ⟨.hbm, 69, rfl⟩

abbrev nD : Nat := 1
abbrev τ : Topo := Topo.v7x

variable {F : FTy → Type} [FloatOps F]

class Facts₀ : Prop where
  reducesTo_S4x16777216_S16777216_d0 : S4x16777216.ReducesTo [0] S16777216
  h_S_ : 0 < S_.numel
  bcast_S_S16777216 : S_.BroadcastsInDim S16777216 (![] : Fin 0 → Fin S16777216.rank)
  reducesTo_S16777216_S_d0 : S16777216.ReducesTo [0] S_

variable [Facts₀]

class Facts : Prop extends Facts₀ where

variable [Facts]
-- ==== Proof.LibTileSum.lean ====
/-
  Finite sums re-indexed, over any additive commutative monoid (so also over the extended reals, where
  no summand need be finite): a sum over the index set of a rank-1 shape or of a [1,1,n] shape is the sum
  over the one long coordinate; a sum over `Fin N` with `N = K * L` is the sum over the `K` consecutive
  blocks of length `L` of each block's sum; and a running total that starts at `z + s 0` and adds `s (n+1)`
  at each step is `z` plus the sum of the terms so far.
-/
import Idealize.ShloMosaic.Lib.ValueIdx

noncomputable section

open scoped BigOperators

namespace Cert.LibTileSum

open Idealize.ShloMosaic Idealize.ShloMosaic.ValueIdx

/-- The index set of a rank-1 shape is its one coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The index set of a [1,1,n] shape is its last coordinate's range: the two unit axes carry nothing. -/
def idxEquiv3u {n : Nat} : (⟨3, ![1, 1, n]⟩ : Shape).Idx ≃ Fin n where
  toFun i := i 2
  invFun a := ix3 (0 : Fin 1) (0 : Fin 1) a
  left_inv i := by
    funext d
    match d with
    | ⟨0, _⟩ => exact Subsingleton.elim (α := Fin 1) _ _
    | ⟨1, _⟩ => exact Subsingleton.elim (α := Fin 1) _ _
    | ⟨2, _⟩ => rfl
  right_inv _ := rfl

/-- A sum over a [1,1,n] index set is the sum over the last coordinate. -/
theorem sum_idx3u {M : Type*} [AddCommMonoid M] {n : Nat} (f : (⟨3, ![1, 1, n]⟩ : Shape).Idx → M) :
    ∑ i, f i = ∑ a : Fin n, f (ix3 (0 : Fin 1) (0 : Fin 1) a) := by
  rw [← Equiv.sum_comp (idxEquiv3u (n := n)).symm f]
  rfl

/-- Position `q` of block `t`, among `K` blocks of length `L`. -/
theorem block_lt {K L : Nat} (t : Fin K) (q : Fin L) : t.val * L + q.val < K * L :=
  calc t.val * L + q.val < t.val * L + L := Nat.add_lt_add_left q.isLt _
    _ = (t.val + 1) * L := by ring
    _ ≤ K * L := Nat.mul_le_mul_right L t.isLt

/-- A sum over `N = K * L` positions is the sum over the `K` consecutive blocks of each block's `L` terms. -/
theorem sum_blocks {M : Type*} [AddCommMonoid M] (K L N : Nat) (hN : N = K * L) (f : Fin N → M) :
    ∑ n, f n = ∑ t : Fin K, ∑ q : Fin L, f ⟨t.val * L + q.val, hN ▸ block_lt t q⟩ := by
  subst hN
  rw [← Equiv.sum_comp (finProdFinEquiv (m := K) (n := L)) f, Fintype.sum_prod_type]
  refine Finset.sum_congr rfl fun t _ => Finset.sum_congr rfl fun q _ => congrArg f (Fin.ext ?_)
  show q.val + L * t.val = t.val * L + q.val
  ring

/-- A running total `a` with `a 0 = z + s 0` and `a (n+1) = a n + s (n+1)` is `z` plus the terms so far. -/
theorem running_total {M : Type*} [AddCommMonoid M] (z : M) (s a : Nat → M) (h0 : a 0 = z + s 0)
    (hs : ∀ n, a (n + 1) = a n + s (n + 1)) (n : Nat) : a n = z + ∑ i ∈ Finset.range (n + 1), s i := by
  induction n with
  | zero => rw [h0, Finset.sum_range_one]
  | succ n ih => rw [hs, ih, Finset.sum_range_succ _ (n + 1), add_assoc]

/-- The same for a running total defined only below a bound `N` (a quantity indexed by the points of a grid). -/
theorem running_total_lt {M : Type*} [AddCommMonoid M] (N : Nat) (z : M) (s : Nat → M) (a : (n : Nat) → n < N → M)
    (h0 : ∀ h : 0 < N, a 0 h = z + s 0)
    (hs : ∀ (n : Nat) (h : n + 1 < N), a (n + 1) h = a n (Nat.lt_of_succ_lt h) + s (n + 1)) :
    ∀ (n : Nat) (h : n < N), a n h = z + ∑ i ∈ Finset.range (n + 1), s i
  | 0, h => by rw [h0 h, Finset.sum_range_one]
  | n + 1, h => by
    rw [hs n h, running_total_lt N z s a h0 hs n (Nat.lt_of_succ_lt h), Finset.sum_range_succ _ (n + 1), add_assoc]

end Cert.LibTileSum

end
-- ==== Proof.PayIdeal.lean ====
import proofs.«179006_j23270132810240_1_alg».proof.Proof.Gen.KernelIdeal.Skeleton
import proofs.«179006_j23270132810240_1_alg».proof.Proof.LibTileSum
import Idealize.ShloMosaic.Lib.Pipeline.Value
import Idealize.ShloMosaic.Lib.ValueIdx
import Idealize.ShloMosaic.Lib.ValueLayout
import Idealize.ShloMosaic.PureOps.Ideal.Laws

/-! The kernel body's payloads read at an index over the extended reals. On a block of 524288 columns:
    the batch mean of column `q` is the sum of the four rows' entries divided by four; the updated narrative
    is `narr·c₁ + mean·c₂ + tonic` and the velocity that minus `narr`; each running sum adds, to what
    the accumulator held, the sum over the block's columns of a square (of `mean − narr`, or of `mean`). -/

noncomputable section

open scoped BigOperators
open Idealize.ShloMosaic Idealize.ShloMosaic.ValueIdx

namespace Cert.KernelIdeal.Pay

open Cert.KernelIdeal Cert.KernelIdeal.Gen Cert.LibTileSum

/-- The batch mean of a [4, 524288] block at column `q`: the four rows summed, divided by four. -/
theorem pay4_apply (x0 : Vec Ideal S4x524288 .f32) (q : Fin 524288) :
    k0_pay4 (F := Ideal) x0 (ix2 (0 : Fin 1) q)
      = Ideal.div (∑ k : Fin 4, x0 (ix2 k q)) (Ideal.ofBits .f32 0x40800000#32) := by
  unfold k0_pay4
  show Ideal.div (shapeCast S1x524288 (multiReduction (F := Ideal) .add [0] S524288 x0 0x00000000#32 reduces_S4x524288_S524288 (.inl rfl) rfl)
    shapeCasts_S524288_S1x524288 (ix2 (0 : Fin 1) q)) (Ideal.ofBits .f32 0x40800000#32) = _
  refine congrArg (fun z => Ideal.div z (Ideal.ofBits .f32 0x40800000#32)) ?_
  refine (shapeCast_a_1a_apply _ shapeCasts_S524288_S1x524288 (0 : Fin 1) q).trans ?_
  refine (Ideal.multiReduction_add_single x0 0x00000000#32 reduces_S4x524288_S524288 (.inl rfl) rfl (ix1 q)).trans ?_
  exact Finset.sum_congr rfl fun k _ => congrArg x0 (funext fun a => Fin.ext (by match a with | ⟨0, _⟩ => rfl | ⟨1, _⟩ => rfl))

/-- A cast of a block to its own shape changes nothing (any float instance). -/
theorem pay5_eq {F : FTy → Type} [FloatOps F] (x1 : Vec F S1x524288 .f32) : k0_pay5 (F := F) x1 = x1 := by
  unfold k0_pay5; exact shapeCast_self _ _

/-- The updated narrative at column `q` of the block. -/
theorem pay6_apply (x0 : Vec Ideal S4x524288 .f32) (x1 x2 : Vec Ideal S1x524288 .f32) (q : Fin 524288) :
    k0_pay6 (F := Ideal) x0 x1 x2 (ix2 (0 : Fin 1) q)
      = x1 (ix2 (0 : Fin 1) q) * Ideal.ofBits .f32 0x3F7D70A4#32
        + k0_pay4 (F := Ideal) x0 (ix2 (0 : Fin 1) q) * Ideal.ofBits .f32 0x3C23D70A#32 + x2 (ix2 (0 : Fin 1) q) := by
  unfold k0_pay6
  rw [pay5_eq]
  show x1 (ix2 (0 : Fin 1) q) * Ideal.ofBits .f32 0x3F7D70A4#32
        + k0_pay4 (F := Ideal) x0 (ix2 (0 : Fin 1) q) * Ideal.ofBits .f32 0x3C23D70A#32
        + shapeCast S1x524288 x2 shapeCasts_S1x524288_S1x524288 (ix2 (0 : Fin 1) q) = _
  rw [shapeCast_self]

/-- The velocity at column `q` of the block: the updated narrative minus the old one. -/
theorem pay7_apply (x0 : Vec Ideal S4x524288 .f32) (x1 x2 : Vec Ideal S1x524288 .f32) (q : Fin 524288) :
    k0_pay7 (F := Ideal) x0 x1 x2 (ix2 (0 : Fin 1) q)
      = k0_pay6 (F := Ideal) x0 x1 x2 (ix2 (0 : Fin 1) q) - x1 (ix2 (0 : Fin 1) q) := by
  unfold k0_pay7
  rw [pay5_eq]
  rfl

instance : Subsingleton S1.Idx := ⟨fun a b => funext fun d => by
  match d with | ⟨0, _⟩ => exact Subsingleton.elim (α := Fin 1) _ _⟩

/-- A [1, 524288] row cast to [1,1,524288] and reduced over its two trailing axes is, at the one index of the
    result, the sum over the row's columns. -/
theorem rowSum_at (v : FVec Ideal S1x524288 .f32) (j : S1.Idx) :
    multiReduction (F := Ideal) .add [1, 2] S1 (shapeCast S1x1x524288 v shapeCasts_S1x524288_S1x1x524288)
        0x00000000#32 reduces_S1x1x524288_S1 (.inl rfl) rfl j
      = ∑ q : Fin 524288, v (ix2 (0 : Fin 1) q) := by
  refine (Ideal.multiReduction_add_total (shapeCast S1x1x524288 v shapeCasts_S1x524288_S1x1x524288) 0x00000000#32
    reduces_S1x1x524288_S1 (fun b => by match b with | ⟨0, _⟩ => rfl) (.inl rfl) rfl j).trans ?_
  refine (sum_idx3u _).trans ?_
  exact Finset.sum_congr rfl fun q _ =>
    shapeCast_ab_1ab_apply v shapeCasts_S1x524288_S1x1x524288 (0 : Fin 1) (0 : Fin 1) q

/-- The one entry of a [1] vector cast to [1,1,1], extracted at (0,0,0), is the vector's entry. -/
theorem extract_unit (v : FVec Ideal S1 .f32) :
    extractAt ![0, 0, 0] (shapeCast S1x1x1 v shapeCasts_S1_S1x1x1) inpos_S1x1x1_p0_0_0 = v (ix1 (0 : Fin 1)) := by
  unfold extractAt shapeCast
  exact congrArg v (Subsingleton.elim _ _)

/-- The accumulating payload of the squared deviation, its intermediate values substituted. -/
theorem pay8_eq (x0 : Vec Ideal S4x524288 .f32) (x1 : Vec Ideal S1x524288 .f32) (acc : Vec Ideal S1x1 .f32) :
    k0_pay8 (F := Ideal) x0 x1 acc
      = addf (shapeCast S1x1 acc shapeCasts_S1x1_S1x1) (broadcast S1x1 (extractAt ![0, 0, 0] (shapeCast S1x1x1
          (multiReduction (F := Ideal) .add [1, 2] S1 (shapeCast S1x1x524288
            (mulf (subf (k0_pay4 (F := Ideal) x0) (k0_pay5 (F := Ideal) x1)) (subf (k0_pay4 (F := Ideal) x0) (k0_pay5 (F := Ideal) x1)))
            shapeCasts_S1x524288_S1x1x524288) 0x00000000#32 reduces_S1x1x524288_S1 (.inl rfl) rfl)
          shapeCasts_S1_S1x1x1) inpos_S1x1x1_p0_0_0)) := rfl

/-- The accumulating store of the squared deviation: what the accumulator held plus the block's sum of
    `(mean − narr)²`. -/
theorem pay8_apply (x0 : Vec Ideal S4x524288 .f32) (x1 : Vec Ideal S1x524288 .f32) (acc : Vec Ideal S1x1 .f32) :
    k0_pay8 (F := Ideal) x0 x1 acc (ix2 (0 : Fin 1) (0 : Fin 1))
      = acc (ix2 (0 : Fin 1) (0 : Fin 1))
        + ∑ q : Fin 524288, (k0_pay4 (F := Ideal) x0 (ix2 (0 : Fin 1) q) - x1 (ix2 (0 : Fin 1) q))
            * (k0_pay4 (F := Ideal) x0 (ix2 (0 : Fin 1) q) - x1 (ix2 (0 : Fin 1) q)) := by
  rw [pay8_eq, pay5_eq, addf_apply, broadcast_apply, shapeCast_self, extract_unit, rowSum_at]
  simp only [mulf_apply, subf_apply]

/-- The accumulating payload of the squared mean, its intermediate values substituted. -/
theorem pay1_eq (v7 : FVec Ideal S1x524288 .f32) (acc : Vec Ideal S1x1 .f32) :
    k0_pay1 (F := Ideal) v7 acc
      = addf (shapeCast S1x1 acc shapeCasts_S1x1_S1x1) (broadcast S1x1 (extractAt ![0, 0, 0] (shapeCast S1x1x1
          (multiReduction (F := Ideal) .add [1, 2] S1 (shapeCast S1x1x524288 (mulf v7 v7)
            shapeCasts_S1x524288_S1x1x524288) 0x00000000#32 reduces_S1x1x524288_S1 (.inl rfl) rfl)
          shapeCasts_S1_S1x1x1) inpos_S1x1x1_p0_0_0)) := rfl

/-- The accumulating store of the squared mean: what the accumulator held plus the block's sum of `mean²`. -/
theorem pay1_apply (v7 : FVec Ideal S1x524288 .f32) (acc : Vec Ideal S1x1 .f32) :
    k0_pay1 (F := Ideal) v7 acc (ix2 (0 : Fin 1) (0 : Fin 1))
      = acc (ix2 (0 : Fin 1) (0 : Fin 1)) + ∑ q : Fin 524288, v7 (ix2 (0 : Fin 1) q) * v7 (ix2 (0 : Fin 1) q) := by
  rw [pay1_eq, addf_apply, broadcast_apply, shapeCast_self, extract_unit, rowSum_at]
  simp only [mulf_apply]

/-- The two resets store the zero word, which is the extended real 0. -/
theorem pay2_apply : k0_pay2 (F := Ideal) (ix2 (0 : Fin 1) (0 : Fin 1)) = 0 := by
  unfold k0_pay2; exact Ideal.ofBits_zero_f32
theorem pay3_apply : k0_pay3 (F := Ideal) (ix2 (0 : Fin 1) (0 : Fin 1)) = 0 := by
  unfold k0_pay3; exact Ideal.ofBits_zero_f32

end Cert.KernelIdeal.Pay

end
-- ==== Proof.Blocks.lean ====
import proofs.«179006_j23270132810240_1_alg».proof.Proof.Gen.KernelIdeal.Frame
import Idealize.ShloMosaic.Lib.Pipeline.Value
import Idealize.ShloMosaic.Lib.Tactic
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem
open Idealize.ShloMosaic.Pipeline (Dat)

/-! Where the windows' blocks sit in their arrays: at grid point `t` every streamed window reads or writes columns
    `524288·t … 524288·t + 524287` of its [·, 16777216] array, and the two [1,1] accumulators stay at block (0,0).
    The two [1, 16777216] operands are the rank-1 arguments with a unit axis put in front. Any float instance. -/

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- Column `q` of block `t`. -/
def col (t : Fin cfg0.N) (q : Fin 524288) : Fin 16777216 :=
  ⟨t.val * 524288 + q.val, by
    have h : t.val < 32 := lt_of_lt_of_eq t.isLt N_0
    have := q.isLt
    omega⟩

/-- The printed index maps, decided over the 32 grid points. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The summary's block at point `t`, entry (k, q), is the array's entry (k, 524288·t + q). -/
theorem iblk0_apply (c : Dev nD) (t : Fin cfg0.N) (k : Fin 4) (q : Fin 524288) :
    (iblk m c 0 t : Vec F S4x524288 .f32) (ix2 k q)
      = (V m c main_arg0 : S4x16777216.Idx → Elt F .f32) (ix2 k (col t q)) := by
  obtain ⟨e0, e1, -⟩ := idx_facts t
  unfold iblk
  rw [View.read_apply]
  show (V m c main_arg0 : S4x16777216.Idx → Elt F .f32) _ = _
  refine congrArg (V m c main_arg0 : S4x16777216.Idx → Elt F .f32) (funext fun a => Fin.ext ?_)
  match a with
  | ⟨0, _⟩ => show win0_0.index t (0 : Fin 2) * 4 + 1 * k.val = k.val; rw [e0]; omega
  | ⟨1, _⟩ => show win0_0.index t (1 : Fin 2) * 524288 + 1 * q.val = t.val * 524288 + q.val; rw [e1]; omega

/-- The narrative's block at point `t`, entry (0, q), is its [1, 16777216] array's entry (0, 524288·t + q). -/
theorem iblk1_apply (c : Dev nD) (t : Fin cfg0.N) (q : Fin 524288) :
    (iblk m c 1 t : Vec F S1x524288 .f32) (ix2 (0 : Fin 1) q)
      = (V m c main_v0 : S1x16777216.Idx → Elt F .f32) (ix2 (0 : Fin 1) (col t q)) := by
  obtain ⟨-, -, e0, e1, -⟩ := idx_facts t
  unfold iblk
  rw [View.read_apply]
  show (V m c main_v0 : S1x16777216.Idx → Elt F .f32) _ = _
  refine congrArg (V m c main_v0 : S1x16777216.Idx → Elt F .f32) (funext fun a => Fin.ext ?_)
  match a with
  | ⟨0, _⟩ => show win0_1.index t (0 : Fin 2) * 1 + 1 * 0 = 0; rw [e0]
  | ⟨1, _⟩ => show win0_1.index t (1 : Fin 2) * 524288 + 1 * q.val = t.val * 524288 + q.val; rw [e1]; omega

/-- The drift's block at point `t`, likewise. -/
theorem iblk2_apply (c : Dev nD) (t : Fin cfg0.N) (q : Fin 524288) :
    (iblk m c 2 t : Vec F S1x524288 .f32) (ix2 (0 : Fin 1) q)
      = (V m c main_v1 : S1x16777216.Idx → Elt F .f32) (ix2 (0 : Fin 1) (col t q)) := by
  obtain ⟨-, -, -, -, e0, e1, -⟩ := idx_facts t
  unfold iblk
  rw [View.read_apply]
  show (V m c main_v1 : S1x16777216.Idx → Elt F .f32) _ = _
  refine congrArg (V m c main_v1 : S1x16777216.Idx → Elt F .f32) (funext fun a => Fin.ext ?_)
  match a with
  | ⟨0, _⟩ => show win0_2.index t (0 : Fin 2) * 1 + 1 * 0 = 0; rw [e0]
  | ⟨1, _⟩ => show win0_2.index t (1 : Fin 2) * 524288 + 1 * q.val = t.val * 524288 + q.val; rw [e1]; omega

/-- The region finds the narrative as the rank-1 argument cast to [1, 16777216]. -/
theorem V_v0 (c : Dev nD) : (V m c main_v0 : S1x16777216.Idx → Elt F .f32)
    = shapeCast S1x16777216 (m ((c : Thread nD τ).loc main_arg1)) shapeCasts_S16777216_S1x16777216 := by
  show StableHlo.after hostOps0 (fun b => m (c, b)) (Proc.devRef .tc main_v0) = _
  after_results
  rfl

/-- The region finds the drift as the rank-1 argument cast to [1, 16777216]. -/
theorem V_v1 (c : Dev nD) : (V m c main_v1 : S1x16777216.Idx → Elt F .f32)
    = shapeCast S1x16777216 (m ((c : Thread nD τ).loc main_arg2)) shapeCasts_S16777216_S1x16777216 := by
  show StableHlo.after hostOps0 (fun b => m (c, b)) (Proc.devRef .tc main_v1) = _
  after_results
  rfl

/-- So the narrative's [1, 16777216] operand at (0, n) is the argument at n, -/
theorem V_v0_apply (c : Dev nD) (n : Fin 16777216) :
    (V m c main_v0 : S1x16777216.Idx → Elt F .f32) (ix2 (0 : Fin 1) n)
      = (m ((c : Thread nD τ).loc main_arg1) : S16777216.Idx → Elt F .f32) (ix1 n) := by
  rw [V_v0]
  exact shapeCast_a_1a_apply _ shapeCasts_S16777216_S1x16777216 (0 : Fin 1) n

/-- and the drift's likewise. -/
theorem V_v1_apply (c : Dev nD) (n : Fin 16777216) :
    (V m c main_v1 : S1x16777216.Idx → Elt F .f32) (ix2 (0 : Fin 1) n)
      = (m ((c : Thread nD τ).loc main_arg2) : S16777216.Idx → Elt F .f32) (ix1 n) := by
  rw [V_v1]
  exact shapeCast_a_1a_apply _ shapeCasts_S16777216_S1x16777216 (0 : Fin 1) n

end Cert.KernelIdeal.Blocks

end
-- ==== Proof.Spec.lean ====
import Idealize.ShloMosaic.PureOps.Ideal
import Idealize.ShloMosaic.Lib.ValueIdx

/-! The results as functions of the argument arrays over the extended reals, one column at a time: the batch
    mean of a column of the [4, 16777216] summary (its four entries summed and divided by four), the updated
    narrative `narr·c₁ + mean·c₂ + tonic`, the velocity (that minus `narr`), and the two squares whose sums over
    all columns are the squared norms. The constants stay the binary words both programs print. -/

noncomputable section

open scoped BigOperators
open Idealize.ShloMosaic Idealize.ShloMosaic.ValueIdx

namespace Cert.Spec

/-- The batch mean of column `n`. -/
def mean (A0 : (⟨2, ![4, 16777216]⟩ : Shape).Idx → EReal) (n : Fin 16777216) : EReal :=
  Ideal.div (∑ k : Fin 4, A0 (ix2 k n)) (Ideal.ofBits .f32 0x40800000#32)

/-- The updated narrative at column `n`. -/
def newNarr (A0 : (⟨2, ![4, 16777216]⟩ : Shape).Idx → EReal) (A1 A2 : (⟨1, ![16777216]⟩ : Shape).Idx → EReal)
    (n : Fin 16777216) : EReal :=
  A1 (ix1 n) * Ideal.ofBits .f32 0x3F7D70A4#32 + mean A0 n * Ideal.ofBits .f32 0x3C23D70A#32 + A2 (ix1 n)

/-- The velocity at column `n`. -/
def vel (A0 : (⟨2, ![4, 16777216]⟩ : Shape).Idx → EReal) (A1 A2 : (⟨1, ![16777216]⟩ : Shape).Idx → EReal)
    (n : Fin 16777216) : EReal :=
  newNarr A0 A1 A2 n - A1 (ix1 n)

/-- The squared deviation of the mean from the narrative at column `n`. -/
def sqDev (A0 : (⟨2, ![4, 16777216]⟩ : Shape).Idx → EReal) (A1 : (⟨1, ![16777216]⟩ : Shape).Idx → EReal)
    (n : Fin 16777216) : EReal :=
  (mean A0 n - A1 (ix1 n)) * (mean A0 n - A1 (ix1 n))

/-- The squared mean at column `n`. -/
def sqMean (A0 : (⟨2, ![4, 16777216]⟩ : Shape).Idx → EReal) (n : Fin 16777216) : EReal :=
  mean A0 n * mean A0 n

/-- The column of an index of a rank-1 array of 16777216 entries. -/
def col1 (i : (⟨1, ![16777216]⟩ : Shape).Idx) : Fin 16777216 := ⟨(i 0).val, (i 0).isLt⟩

theorem col1_ix1 (n : Fin 16777216) : col1 (ix1 n) = n := rfl

/-- The updated narrative, as a rank-1 array. -/
def newNarrArr (A0 : (⟨2, ![4, 16777216]⟩ : Shape).Idx → EReal) (A1 A2 : (⟨1, ![16777216]⟩ : Shape).Idx → EReal) :
    (⟨1, ![16777216]⟩ : Shape).Idx → EReal := fun i => newNarr A0 A1 A2 (col1 i)

/-- The velocity, as a rank-1 array. -/
def velArr (A0 : (⟨2, ![4, 16777216]⟩ : Shape).Idx → EReal) (A1 A2 : (⟨1, ![16777216]⟩ : Shape).Idx → EReal) :
    (⟨1, ![16777216]⟩ : Shape).Idx → EReal := fun i => vel A0 A1 A2 (col1 i)

/-- The squared norm of the deviation, as a rank-0 array: the sum of the squared deviations over all columns. -/
def sumsqDev (A0 : (⟨2, ![4, 16777216]⟩ : Shape).Idx → EReal) (A1 : (⟨1, ![16777216]⟩ : Shape).Idx → EReal) :
    (⟨0, ![]⟩ : Shape).Idx → EReal := fun _ => ∑ n : Fin 16777216, sqDev A0 A1 n

/-- The squared norm of the mean, as a rank-0 array. -/
def sumsqMean (A0 : (⟨2, ![4, 16777216]⟩ : Shape).Idx → EReal) :
    (⟨0, ![]⟩ : Shape).Idx → EReal := fun _ => ∑ n : Fin 16777216, sqMean A0 n

end Cert.Spec

end
-- ==== Proof.BlockSpec.lean ====
import proofs.«179006_j23270132810240_1_alg».proof.Proof.Gen.KernelIdeal.Frame
import Idealize.ShloMosaic.Lib.Pipeline.Value
import Idealize.ShloMosaic.Lib.Tactic
import proofs.«179006_j23270132810240_1_alg».proof.Proof.PayIdeal
import proofs.«179006_j23270132810240_1_alg».proof.Proof.Blocks
import proofs.«179006_j23270132810240_1_alg».proof.Proof.Spec

noncomputable section

open Idealize.ShloMosaic Idealize.ShloMosaic.TcCoe Idealize.SL.Sem
open Idealize.ShloMosaic.Pipeline (Dat)

/-! The body's payloads at grid point `t`, read over the extended reals at column `q` of the point's block, are the
    specification's per-column functions of the ARGUMENT arrays at column `524288·t + q`; and each accumulating
    store adds the block's 524288 squares to what the accumulator held. -/

namespace Cert.KernelIdeal.BlockSpec

open scoped BigOperators
open Cert.KernelIdeal Cert.KernelIdeal.Gen Idealize.ShloMosaic.ValueIdx Cert.KernelIdeal.Blocks

variable (m : (ℓ : Loc nD τ sig) → Buf (Elt Ideal) ℓ)

/-- The three argument arrays on core `c`, as functions of their indices. -/
abbrev A0 (c : Dev nD) : S4x16777216.Idx → EReal := m ((c : Thread nD τ).loc main_arg0)
abbrev A1 (c : Dev nD) : S16777216.Idx → EReal := m ((c : Thread nD τ).loc main_arg1)
abbrev A2 (c : Dev nD) : S16777216.Idx → EReal := m ((c : Thread nD τ).loc main_arg2)

/-- The mean payload at column `q` of block `t` is the batch mean of column `524288·t + q`. -/
theorem pay4_block (c : Dev nD) (t : Fin cfg0.N) (q : Fin 524288) :
    k0_pay4 (F := Ideal) (iblk m c 0 t) (ix2 (0 : Fin 1) q) = Spec.mean (A0 m c) (col t q) := by
  refine (Pay.pay4_apply (iblk m c 0 t) q).trans ?_
  unfold Spec.mean
  refine congrArg (fun z => Ideal.div z (Ideal.ofBits .f32 0x40800000#32)) (Finset.sum_congr rfl fun k _ => ?_)
  exact (iblk0_apply m c t k q).trans (congrFun (V_main_arg0 m c) _)

/-- The narrative block's entry, as the rank-1 argument's. -/
theorem narr_block (c : Dev nD) (t : Fin cfg0.N) (q : Fin 524288) :
    (iblk m c 1 t : Vec Ideal S1x524288 .f32) (ix2 (0 : Fin 1) q) = A1 m c (ix1 (col t q)) :=
  (iblk1_apply m c t q).trans (V_v0_apply m c (col t q))

/-- The drift block's entry, as the rank-1 argument's. -/
theorem tonic_block (c : Dev nD) (t : Fin cfg0.N) (q : Fin 524288) :
    (iblk m c 2 t : Vec Ideal S1x524288 .f32) (ix2 (0 : Fin 1) q) = A2 m c (ix1 (col t q)) :=
  (iblk2_apply m c t q).trans (V_v1_apply m c (col t q))

/-- The first output's payload at column `q` of block `t` is the updated narrative at column `524288·t + q`. -/
theorem pay6_block (c : Dev nD) (t : Fin cfg0.N) (q : Fin 524288) :
    k0_pay6 (F := Ideal) (iblk m c 0 t) (iblk m c 1 t) (iblk m c 2 t) (ix2 (0 : Fin 1) q)
      = Spec.newNarr (A0 m c) (A1 m c) (A2 m c) (col t q) := by
  refine (Pay.pay6_apply (iblk m c 0 t) (iblk m c 1 t) (iblk m c 2 t) q).trans ?_
  rw [pay4_block m c t q, narr_block m c t q, tonic_block m c t q]
  rfl

/-- The second output's payload at column `q` of block `t` is the velocity at column `524288·t + q`. -/
theorem pay7_block (c : Dev nD) (t : Fin cfg0.N) (q : Fin 524288) :
    k0_pay7 (F := Ideal) (iblk m c 0 t) (iblk m c 1 t) (iblk m c 2 t) (ix2 (0 : Fin 1) q)
      = Spec.vel (A0 m c) (A1 m c) (A2 m c) (col t q) := by
  refine (Pay.pay7_apply (iblk m c 0 t) (iblk m c 1 t) (iblk m c 2 t) q).trans ?_
  rw [pay6_block m c t q, narr_block m c t q]
  rfl

/-- The first accumulating store at point `t` adds the block's squared deviations. -/
theorem pay8_block (c : Dev nD) (t : Fin cfg0.N) (acc : Vec Ideal S1x1 .f32) :
    k0_pay8 (F := Ideal) (iblk m c 0 t) (iblk m c 1 t) acc (ix2 (0 : Fin 1) (0 : Fin 1))
      = acc (ix2 (0 : Fin 1) (0 : Fin 1)) + ∑ q : Fin 524288, Spec.sqDev (A0 m c) (A1 m c) (col t q) := by
  refine (Pay.pay8_apply (iblk m c 0 t) (iblk m c 1 t) acc).trans ?_
  refine congrArg (fun z => acc (ix2 (0 : Fin 1) (0 : Fin 1)) + z) (Finset.sum_congr rfl fun q _ => ?_)
  rw [pay4_block m c t q, narr_block m c t q]
  rfl

/-- The second accumulating store at point `t` adds the block's squared means. -/
theorem pay1_block (c : Dev nD) (t : Fin cfg0.N) (acc : Vec Ideal S1x1 .f32) :
    k0_pay1 (F := Ideal) (k0_pay4 (F := Ideal) (iblk m c 0 t)) acc (ix2 (0 : Fin 1) (0 : Fin 1))
      = acc (ix2 (0 : Fin 1) (0 : Fin 1)) + ∑ q : Fin 524288, Spec.sqMean (A0 m c) (col t q) := by
  refine (Pay.pay1_apply (k0_pay4 (F := Ideal) (iblk m c 0 t)) acc).trans ?_
  refine congrArg (fun z => acc (ix2 (0 : Fin 1) (0 : Fin 1)) + z) (Finset.sum_congr rfl fun q _ => ?_)
  rw [pay4_block m c t q]
  rfl

end Cert.KernelIdeal.BlockSpec

end
-- ==== Proof.Pieces.lean ====
import proofs.«179006_j23270132810240_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-! What each case of the kernel body leaves in the four output staging buffers, as the body's pure payloads of
    the input blocks (and, for the two running sums, of what the buffer held before). Any float instance. -/

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- Away from the first grid point, output 3's staging buffer is left at its one covering store's payload,
    whose loads read the whole input buffers. -/
theorem out_B_3 (c : Dev nD) (i : grid0.Coords) (a1 : Memref sig .tc .vmem S4x524288 .f32) (h1 : a1.IsWhole)
    (a2 : Memref sig .tc .vmem S1x524288 .f32) (h2 : a2.IsWhole) (a3 : Memref sig .tc .vmem S1x524288 .f32) (h3 : a3.IsWhole)
    (a4 : Memref sig .tc .vmem S1x524288 .f32) (h4 : a4.IsWhole) (a5 : Memref sig .tc .vmem S1x524288 .f32) (h5 : a5.IsWhole)
    (a6 : Memref sig .tc .vmem S1x1 .f32) (h6 : a6.IsWhole) (a7 : Memref sig .tc .vmem S1x1 .f32) (h7 : a7.IsWhole)
    (hc : ¬cond0_0 i) (x0 : Vec F S4x524288 .f32) (x1 x2 : Vec F S1x524288 .f32) (xo5 xo6 : Vec F S1x1 .f32) :
    out0_B_3 c i a1 h1 a2 h2 a3 h3 a4 h4 a5 h5 a6 h6 a7 h7 hc x0 x1 x2 xo5 xo6 = k0_pay6 x0 x1 x2 := by
  unfold out0_B_3
  rw [View.read_writes_eq_canon _ _ _ (cover0_B_3 c i a1 h1 a2 h2 a3 h3 a4 h4 a5 h5 a6 h6 a7 h7 hc x0 x1 x2 xo5 xo6)]
  unfold kernelRun0_B
  dsimp only
  rw [View.canon_unit_zero hz]
  simp only [View.readAt_eq_ld, h1.read_unread, h2.read_unread, h3.read_unread, h6.read_unread, h7.read_unread,
    View.ld_unit_zero (S := S4x524288) hz, View.ld_unit_zero (S := S1x524288) hz, View.ld_unit_zero (S := S1x1) hz]

/-- Away from the first grid point, output 4's staging buffer is left at its one covering store's payload,
    whose loads read the whole input buffers. -/
theorem out_B_4 (c : Dev nD) (i : grid0.Coords) (a1 : Memref sig .tc .vmem S4x524288 .f32) (h1 : a1.IsWhole)
    (a2 : Memref sig .tc .vmem S1x524288 .f32) (h2 : a2.IsWhole) (a3 : Memref sig .tc .vmem S1x524288 .f32) (h3 : a3.IsWhole)
    (a4 : Memref sig .tc .vmem S1x524288 .f32) (h4 : a4.IsWhole) (a5 : Memref sig .tc .vmem S1x524288 .f32) (h5 : a5.IsWhole)
    (a6 : Memref sig .tc .vmem S1x1 .f32) (h6 : a6.IsWhole) (a7 : Memref sig .tc .vmem S1x1 .f32) (h7 : a7.IsWhole)
    (hc : ¬cond0_0 i) (x0 : Vec F S4x524288 .f32) (x1 x2 : Vec F S1x524288 .f32) (xo5 xo6 : Vec F S1x1 .f32) :
    out0_B_4 c i a1 h1 a2 h2 a3 h3 a4 h4 a5 h5 a6 h6 a7 h7 hc x0 x1 x2 xo5 xo6 = k0_pay7 x0 x1 x2 := by
  unfold out0_B_4
  rw [View.read_writes_eq_canon _ _ _ (cover0_B_4 c i a1 h1 a2 h2 a3 h3 a4 h4 a5 h5 a6 h6 a7 h7 hc x0 x1 x2 xo5 xo6)]
  unfold kernelRun0_B
  dsimp only
  rw [View.canon_unit_zero hz]
  simp only [View.readAt_eq_ld, h1.read_unread, h2.read_unread, h3.read_unread, h6.read_unread, h7.read_unread,
    View.ld_unit_zero (S := S4x524288) hz, View.ld_unit_zero (S := S1x524288) hz, View.ld_unit_zero (S := S1x1) hz]

/-- Away from the first grid point, output 5's staging buffer is left at its one covering store's payload,
    whose loads read the whole input buffers. -/
theorem out_B_5 (c : Dev nD) (i : grid0.Coords) (a1 : Memref sig .tc .vmem S4x524288 .f32) (h1 : a1.IsWhole)
    (a2 : Memref sig .tc .vmem S1x524288 .f32) (h2 : a2.IsWhole) (a3 : Memref sig .tc .vmem S1x524288 .f32) (h3 : a3.IsWhole)
    (a4 : Memref sig .tc .vmem S1x524288 .f32) (h4 : a4.IsWhole) (a5 : Memref sig .tc .vmem S1x524288 .f32) (h5 : a5.IsWhole)
    (a6 : Memref sig .tc .vmem S1x1 .f32) (h6 : a6.IsWhole) (a7 : Memref sig .tc .vmem S1x1 .f32) (h7 : a7.IsWhole)
    (hc : ¬cond0_0 i) (x0 : Vec F S4x524288 .f32) (x1 x2 : Vec F S1x524288 .f32) (xo5 xo6 : Vec F S1x1 .f32) :
    out0_B_5 c i a1 h1 a2 h2 a3 h3 a4 h4 a5 h5 a6 h6 a7 h7 hc x0 x1 x2 xo5 xo6 = k0_pay8 x0 x1 xo5 := by
  unfold out0_B_5
  rw [View.read_writes_eq_canon _ _ _ (cover0_B_5 c i a1 h1 a2 h2 a3 h3 a4 h4 a5 h5 a6 h6 a7 h7 hc x0 x1 x2 xo5 xo6)]
  unfold kernelRun0_B
  dsimp only
  rw [View.canon_unit_zero hz]
  simp only [View.readAt_eq_ld, h1.read_unread, h2.read_unread, h3.read_unread, h6.read_unread, h7.read_unread,
    View.ld_unit_zero (S := S4x524288) hz, View.ld_unit_zero (S := S1x524288) hz, View.ld_unit_zero (S := S1x1) hz]

/-- Away from the first grid point, output 6's staging buffer is left at its one covering store's payload,
    whose loads read the whole input buffers. -/
theorem out_B_6 (c : Dev nD) (i : grid0.Coords) (a1 : Memref sig .tc .vmem S4x524288 .f32) (h1 : a1.IsWhole)
    (a2 : Memref sig .tc .vmem S1x524288 .f32) (h2 : a2.IsWhole) (a3 : Memref sig .tc .vmem S1x524288 .f32) (h3 : a3.IsWhole)
    (a4 : Memref sig .tc .vmem S1x524288 .f32) (h4 : a4.IsWhole) (a5 : Memref sig .tc .vmem S1x524288 .f32) (h5 : a5.IsWhole)
    (a6 : Memref sig .tc .vmem S1x1 .f32) (h6 : a6.IsWhole) (a7 : Memref sig .tc .vmem S1x1 .f32) (h7 : a7.IsWhole)
    (hc : ¬cond0_0 i) (x0 : Vec F S4x524288 .f32) (x1 x2 : Vec F S1x524288 .f32) (xo5 xo6 : Vec F S1x1 .f32) :
    out0_B_6 c i a1 h1 a2 h2 a3 h3 a4 h4 a5 h5 a6 h6 a7 h7 hc x0 x1 x2 xo5 xo6 = k0_pay1 (k0_pay4 x0) xo6 := by
  unfold out0_B_6
  rw [View.read_writes_eq_canon _ _ _ (cover0_B_6 c i a1 h1 a2 h2 a3 h3 a4 h4 a5 h5 a6 h6 a7 h7 hc x0 x1 x2 xo5 xo6)]
  unfold kernelRun0_B
  dsimp only
  sl_unfold_words
  rw [View.canon_unit_zero hz]
  simp only [View.readAt_eq_ld, h1.read_unread, h2.read_unread, h3.read_unread, h6.read_unread, h7.read_unread,
    View.ld_unit_zero (S := S4x524288) hz, View.ld_unit_zero (S := S1x524288) hz, View.ld_unit_zero (S := S1x1) hz]

/-- At the first grid point, output 3's staging buffer is left at its one covering store's payload. -/
theorem out_A_3 (c : Dev nD) (i : grid0.Coords) (a1 : Memref sig .tc .vmem S4x524288 .f32) (h1 : a1.IsWhole)
    (a2 : Memref sig .tc .vmem S1x524288 .f32) (h2 : a2.IsWhole) (a3 : Memref sig .tc .vmem S1x524288 .f32) (h3 : a3.IsWhole)
    (a4 : Memref sig .tc .vmem S1x524288 .f32) (h4 : a4.IsWhole) (a5 : Memref sig .tc .vmem S1x524288 .f32) (h5 : a5.IsWhole)
    (a6 : Memref sig .tc .vmem S1x1 .f32) (h6 : a6.IsWhole) (a7 : Memref sig .tc .vmem S1x1 .f32) (h7 : a7.IsWhole)
    (hc : cond0_0 i) (x0 : Vec F S4x524288 .f32) (x1 x2 : Vec F S1x524288 .f32) :
    out0_A_3 c i a1 h1 a2 h2 a3 h3 a4 h4 a5 h5 a6 h6 a7 h7 hc x0 x1 x2 = k0_pay6 x0 x1 x2 := by
  unfold out0_A_3
  rw [View.read_writes_eq_canon _ _ _ (cover0_A_3 c i a1 h1 a2 h2 a3 h3 a4 h4 a5 h5 a6 h6 a7 h7 hc x0 x1 x2)]
  unfold kernelRun0_A
  dsimp only
  rw [View.canon_unit_zero hz]
  simp only [View.readAt_eq_ld, h1.read_unread, h2.read_unread, h3.read_unread, h6.read_unread, h7.read_unread,
    View.ld_unit_zero (S := S4x524288) hz, View.ld_unit_zero (S := S1x524288) hz, View.ld_unit_zero (S := S1x1) hz]

/-- At the first grid point, output 4's staging buffer is left at its one covering store's payload. -/
theorem out_A_4 (c : Dev nD) (i : grid0.Coords) (a1 : Memref sig .tc .vmem S4x524288 .f32) (h1 : a1.IsWhole)
    (a2 : Memref sig .tc .vmem S1x524288 .f32) (h2 : a2.IsWhole) (a3 : Memref sig .tc .vmem S1x524288 .f32) (h3 : a3.IsWhole)
    (a4 : Memref sig .tc .vmem S1x524288 .f32) (h4 : a4.IsWhole) (a5 : Memref sig .tc .vmem S1x524288 .f32) (h5 : a5.IsWhole)
    (a6 : Memref sig .tc .vmem S1x1 .f32) (h6 : a6.IsWhole) (a7 : Memref sig .tc .vmem S1x1 .f32) (h7 : a7.IsWhole)
    (hc : cond0_0 i) (x0 : Vec F S4x524288 .f32) (x1 x2 : Vec F S1x524288 .f32) :
    out0_A_4 c i a1 h1 a2 h2 a3 h3 a4 h4 a5 h5 a6 h6 a7 h7 hc x0 x1 x2 = k0_pay7 x0 x1 x2 := by
  unfold out0_A_4
  rw [View.read_writes_eq_canon _ _ _ (cover0_A_4 c i a1 h1 a2 h2 a3 h3 a4 h4 a5 h5 a6 h6 a7 h7 hc x0 x1 x2)]
  unfold kernelRun0_A
  dsimp only
  rw [View.canon_unit_zero hz]
  simp only [View.readAt_eq_ld, h1.read_unread, h2.read_unread, h3.read_unread, h6.read_unread, h7.read_unread,
    View.ld_unit_zero (S := S4x524288) hz, View.ld_unit_zero (S := S1x524288) hz, View.ld_unit_zero (S := S1x1) hz]

/-- At the first grid point, the accumulator of output 5 is first zeroed, read back, and then left at the
    accumulating store's payload over that zero. -/
theorem out_A_5 (c : Dev nD) (i : grid0.Coords) (a1 : Memref sig .tc .vmem S4x524288 .f32) (h1 : a1.IsWhole)
    (a2 : Memref sig .tc .vmem S1x524288 .f32) (h2 : a2.IsWhole) (a3 : Memref sig .tc .vmem S1x524288 .f32) (h3 : a3.IsWhole)
    (a4 : Memref sig .tc .vmem S1x524288 .f32) (h4 : a4.IsWhole) (a5 : Memref sig .tc .vmem S1x524288 .f32) (h5 : a5.IsWhole)
    (a6 : Memref sig .tc .vmem S1x1 .f32) (h6 : a6.IsWhole) (a7 : Memref sig .tc .vmem S1x1 .f32) (h7 : a7.IsWhole)
    (hc : cond0_0 i) (x0 : Vec F S4x524288 .f32) (x1 x2 : Vec F S1x524288 .f32) :
    out0_A_5 c i a1 h1 a2 h2 a3 h3 a4 h4 a5 h5 a6 h6 a7 h7 hc x0 x1 x2 = k0_pay8 x0 x1 (k0_pay2 (F := F)) := by
  unfold out0_A_5
  rw [View.read_writes_eq_canon _ _ _ (cover0_A_5 c i a1 h1 a2 h2 a3 h3 a4 h4 a5 h5 a6 h6 a7 h7 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h6.read_unread, h7.read_unread,
    View.ld_unit_zero (S := S4x524288) hz, View.ld_unit_zero (S := S1x524288) hz, View.ld_unit_zero (S := S1x1) hz]

/-- At the first grid point, the accumulator of output 6 is first zeroed, read back, and then left at the
    accumulating store's payload over that zero. -/
theorem out_A_6 (c : Dev nD) (i : grid0.Coords) (a1 : Memref sig .tc .vmem S4x524288 .f32) (h1 : a1.IsWhole)
    (a2 : Memref sig .tc .vmem S1x524288 .f32) (h2 : a2.IsWhole) (a3 : Memref sig .tc .vmem S1x524288 .f32) (h3 : a3.IsWhole)
    (a4 : Memref sig .tc .vmem S1x524288 .f32) (h4 : a4.IsWhole) (a5 : Memref sig .tc .vmem S1x524288 .f32) (h5 : a5.IsWhole)
    (a6 : Memref sig .tc .vmem S1x1 .f32) (h6 : a6.IsWhole) (a7 : Memref sig .tc .vmem S1x1 .f32) (h7 : a7.IsWhole)
    (hc : cond0_0 i) (x0 : Vec F S4x524288 .f32) (x1 x2 : Vec F S1x524288 .f32) :
    out0_A_6 c i a1 h1 a2 h2 a3 h3 a4 h4 a5 h5 a6 h6 a7 h7 hc x0 x1 x2 = k0_pay1 (k0_pay4 x0) (k0_pay3 (F := F)) := by
  unfold out0_A_6
  rw [View.read_writes_eq_canon _ _ _ (cover0_A_6 c i a1 h1 a2 h2 a3 h3 a4 h4 a5 h5 a6 h6 a7 h7 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h6.read_unread, h7.read_unread,
    View.ld_unit_zero (S := S4x524288) hz, View.ld_unit_zero (S := S1x524288) hz, View.ld_unit_zero (S := S1x1) hz]

end Cert.KernelIdeal.Pieces

end
-- ==== Proof.Outs.lean ====
import proofs.«179006_j23270132810240_1_alg».proof.Proof.Gen.KernelIdeal.Frame
import Idealize.ShloMosaic.Lib.Pipeline.Value
import Idealize.ShloMosaic.Lib.Tactic
import proofs.«179006_j23270132810240_1_alg».proof.Proof.Pieces

noncomputable section

open Idealize.ShloMosaic Idealize.ShloMosaic.TcCoe Idealize.SL.Sem
open Idealize.ShloMosaic.Pipeline (Dat)

/-! What the four output staging buffers hold after each grid point, as payloads of that point's input blocks:
    the two elementwise outputs depend on the point alone; each running sum starts, at the first point, from the
    stored zero, and at every later point from what the point before left. Any float instance. -/

namespace Cert.KernelIdeal.Outs

open Cert.KernelIdeal Cert.KernelIdeal.Gen

variable {F : FTy → Type} [FloatOps F]
variable (m : (ℓ : Loc nD τ sig) → Buf (Elt F) ℓ)

/-- After any point the first output's buffer holds the updated-narrative payload of the point's blocks. -/
theorem outs3 (c : Dev nD) (t : Fin cfg0.N) :
    (outsAt0 m c t.val t.isLt).1 = k0_pay6 (iblk m c 0 t) (iblk m c 1 t) (iblk m c 2 t) := by
  by_cases h0 : t.val % 32 = 0
  · rw [outsAt0_A m c t h0]
    dsimp only
    exact Pieces.out_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t)
  · rw [outsAt0_B m c t h0]
    dsimp only
    exact Pieces.out_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2

/-- After any point the second output's buffer holds the velocity payload of the point's blocks. -/
theorem outs4 (c : Dev nD) (t : Fin cfg0.N) :
    (outsAt0 m c t.val t.isLt).2.1 = k0_pay7 (iblk m c 0 t) (iblk m c 1 t) (iblk m c 2 t) := by
  by_cases h0 : t.val % 32 = 0
  · rw [outsAt0_A m c t h0]
    dsimp only
    exact Pieces.out_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t)
  · rw [outsAt0_B m c t h0]
    dsimp only
    exact Pieces.out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2

/-- The first running sum after the first point: the accumulating payload over the stored zero. -/
theorem outs5_zero (c : Dev nD) (h : 0 < cfg0.N) :
    (outsAt0 m c 0 h).2.2.1 = k0_pay8 (iblk m c 0 ⟨0, h⟩) (iblk m c 1 ⟨0, h⟩) (k0_pay2 (F := F)) := by
  rw [outsAt0_A m c ⟨0, h⟩ rfl]
  dsimp only
  exact Pieces.out_A_5 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) ((hcond0_0 ⟨0, h⟩).mpr rfl) (iblk m c 0 ⟨0, h⟩) (iblk m c 1 ⟨0, h⟩) (iblk m c 2 ⟨0, h⟩)

/-- The first running sum after a later point: the accumulating payload over what the point before left. -/
theorem outs5_succ (c : Dev nD) (n : Nat) (h : n + 1 < cfg0.N) :
    (outsAt0 m c (n + 1) h).2.2.1
      = k0_pay8 (iblk m c 0 ⟨n + 1, h⟩) (iblk m c 1 ⟨n + 1, h⟩) (outsAt0 m c n (Nat.lt_of_succ_lt h)).2.2.1 := by
  have hN : cfg0.N = 32 := N_0
  have hB : ¬(⟨n + 1, h⟩ : Fin cfg0.N).val % 32 = 0 := by dsimp only; omega
  rw [outsAt0_B m c ⟨n + 1, h⟩ hB]
  dsimp only
  exact Pieces.out_B_5 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (fun hh => hB ((hcond0_0 ⟨n + 1, h⟩).mp hh)) (iblk m c 0 ⟨n + 1, h⟩) (iblk m c 1 ⟨n + 1, h⟩) (iblk m c 2 ⟨n + 1, h⟩)
    (outsAt0 m c n (Nat.lt_of_succ_lt h)).2.2.1 (outsAt0 m c n (Nat.lt_of_succ_lt h)).2.2.2

/-- The second running sum after the first point. -/
theorem outs6_zero (c : Dev nD) (h : 0 < cfg0.N) :
    (outsAt0 m c 0 h).2.2.2 = k0_pay1 (k0_pay4 (iblk m c 0 ⟨0, h⟩)) (k0_pay3 (F := F)) := by
  rw [outsAt0_A m c ⟨0, h⟩ rfl]
  dsimp only
  exact Pieces.out_A_6 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) ((hcond0_0 ⟨0, h⟩).mpr rfl) (iblk m c 0 ⟨0, h⟩) (iblk m c 1 ⟨0, h⟩) (iblk m c 2 ⟨0, h⟩)

/-- The second running sum after a later point. -/
theorem outs6_succ (c : Dev nD) (n : Nat) (h : n + 1 < cfg0.N) :
    (outsAt0 m c (n + 1) h).2.2.2
      = k0_pay1 (k0_pay4 (iblk m c 0 ⟨n + 1, h⟩)) (outsAt0 m c n (Nat.lt_of_succ_lt h)).2.2.2 := by
  have hN : cfg0.N = 32 := N_0
  have hB : ¬(⟨n + 1, h⟩ : Fin cfg0.N).val % 32 = 0 := by dsimp only; omega
  rw [outsAt0_B m c ⟨n + 1, h⟩ hB]
  dsimp only
  exact Pieces.out_B_6 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (fun hh => hB ((hcond0_0 ⟨n + 1, h⟩).mp hh)) (iblk m c 0 ⟨n + 1, h⟩) (iblk m c 1 ⟨n + 1, h⟩) (iblk m c 2 ⟨n + 1, h⟩)
    (outsAt0 m c n (Nat.lt_of_succ_lt h)).2.2.1 (outsAt0 m c n (Nat.lt_of_succ_lt h)).2.2.2

end Cert.KernelIdeal.Outs

end
-- ==== Proof.Final.lean ====
import proofs.«179006_j23270132810240_1_alg».proof.Proof.Gen.KernelIdeal.Frame
import Idealize.ShloMosaic.Lib.Pipeline.Value
import Idealize.ShloMosaic.Lib.Tactic
import proofs.«179006_j23270132810240_1_alg».proof.Proof.BlockSpec
import proofs.«179006_j23270132810240_1_alg».proof.Proof.Outs

noncomputable section

open Idealize.ShloMosaic Idealize.ShloMosaic.TcCoe Idealize.SL.Sem
open Idealize.ShloMosaic.Pipeline (Dat)

/-! The four output arrays after the region, over the extended reals. The two streamed outputs: every grid point
    writes back its block, the 32 blocks tile the [1, 16777216] array, and block `t` holds the specification's
    values at columns `524288·t …`. The two [1,1] accumulators: written back once, after the last point, holding
    zero plus the 32 blocks' sums of squares, which is the sum over all 16777216 columns. -/

namespace Cert.KernelIdeal.Final

open scoped BigOperators
open Cert.KernelIdeal Cert.KernelIdeal.Gen Idealize.ShloMosaic.ValueIdx
open Cert.KernelIdeal.Blocks Cert.KernelIdeal.BlockSpec Cert.LibTileSum

variable (m : (ℓ : Loc nD τ sig) → Buf (Elt Ideal) ℓ)

/-- An index of a [1, n] shape is (0, its column). -/
theorem idx_row {n : Nat} (j : (⟨2, ![1, n]⟩ : Shape).Idx) : j = ix2 (0 : Fin 1) (j 1) := by
  funext a
  match a with
  | ⟨0, _⟩ => exact Subsingleton.elim (α := Fin 1) _ _
  | ⟨1, _⟩ => rfl

/-- The one index of a [1,1] shape. -/
theorem idx_unit (j : (⟨2, ![1, 1]⟩ : Shape).Idx) : j = ix2 (0 : Fin 1) (0 : Fin 1) := by
  funext a
  match a with
  | ⟨0, _⟩ => exact Subsingleton.elim (α := Fin 1) _ _
  | ⟨1, _⟩ => exact Subsingleton.elim (α := Fin 1) _ _

/-- The column of an index of a [1, 16777216] array. -/
def colOf (i : S1x16777216.Idx) : Fin 16777216 := ⟨(i 1).val, (i 1).isLt⟩

/-- What output window 3's [1, 16777216] array ends holding. -/
def G3 (c : Dev nD) : S1x16777216.Idx → EReal := fun i => Spec.newNarr (A0 m c) (A1 m c) (A2 m c) (colOf i)

/-- Entry (0, q) of block `t` of window 3 sits at column `524288·t + q` of the array. -/
theorem emb_col3 (t : Fin cfg0.N) (q : Fin 524288) :
    colOf (((cfg0.win 3).blk t).view.emb (ix2 (0 : Fin 1) q)) = col t q := by
  obtain ⟨-, -, -, -, -, -, -, e1, -⟩ := idx_facts t
  refine Fin.ext ?_
  show win0_3.index t (1 : Fin 2) * 524288 + 1 * q.val = t.val * 524288 + q.val
  rw [e1]; omega

/-- What point `t` writes back through window 3 is block `t` of `G3`. -/
theorem flushed3_eq (c : Dev nD) (t : Fin cfg0.N) :
    (dats m 0 c).flushed 3 t = ((cfg0.win 3).blk t).view.read (Elt Ideal) (G3 m c) := by
  show (cfg0.win 3).cut (grid0.coords t) ((dats m 0 c).after 3 t) = _
  rw [after0_3, Outs.outs3 m c t]
  funext j
  obtain ⟨q, rfl⟩ : ∃ q : Fin 524288, j = ix2 (0 : Fin 1) q := ⟨j 1, idx_row j⟩
  refine (pay6_block m c t q).trans ?_
  rw [View.read_apply]
  show _ = Spec.newNarr (A0 m c) (A1 m c) (A2 m c) (colOf (((cfg0.win 3).blk t).view.emb (ix2 (0 : Fin 1) q)))
  rw [emb_col3 t q]

/-- An index of the array is in point `t`'s block of window 3 iff each coordinate is in the block's range. -/
theorem mem_blk3 (t : Fin cfg0.N) (i : S1x16777216.Idx) :
    i ∈ ((cfg0.win 3).blk t).view.set ↔ ∀ a : Fin 2, win0_3.index t a * S1x524288.size a ≤ (i a).val
      ∧ (i a).val < win0_3.index t a * S1x524288.size a + S1x524288.size a := by
  show i ∈ ((View.whole main_v2_0).slice (win0_3.rect t)).set ↔ _
  rw [View.set_slice_whole, Rect.mem_set_unit]
  exact Iff.rfl

/-- Column `n` lies in the block of point `n / 524288`: the 32 blocks tile the array. -/
theorem cover3 (i : S1x16777216.Idx) :
    ∃ t : Fin cfg0.N, (cfg0.win 3).flush t = true ∧ i ∈ ((cfg0.win 3).blk t).view.set := by
  have hi0 : (i 0).val < 1 := (i 0).isLt
  have hi1 : (i 1).val < 16777216 := (i 1).isLt
  have hN : cfg0.N = 32 := N_0
  have hb : (i 1).val / 524288 < cfg0.N := by rw [hN]; omega
  obtain ⟨-, -, -, -, -, -, e0, e1, -⟩ := idx_facts ⟨(i 1).val / 524288, hb⟩
  refine ⟨⟨(i 1).val / 524288, hb⟩, flush0_3 _, ?_⟩
  rw [mem_blk3]
  intro a
  match a with
  | ⟨0, _⟩ =>
    show win0_3.index ⟨(i 1).val / 524288, hb⟩ (0 : Fin 2) * 1 ≤ (i 0).val
      ∧ (i 0).val < win0_3.index ⟨(i 1).val / 524288, hb⟩ (0 : Fin 2) * 1 + 1
    rw [e0]; omega
  | ⟨1, _⟩ =>
    show win0_3.index ⟨(i 1).val / 524288, hb⟩ (1 : Fin 2) * 524288 ≤ (i 1).val
      ∧ (i 1).val < win0_3.index ⟨(i 1).val / 524288, hb⟩ (1 : Fin 2) * 524288 + 524288
    rw [e1]; show (i 1).val / 524288 * 524288 ≤ (i 1).val ∧ (i 1).val < (i 1).val / 524288 * 524288 + 524288; omega

/-- So window 3's array ends holding `G3`. -/
theorem final3 (c : Dev nD) : (dats m 0 c).arrAt 3 cfg0.N = G3 m c :=
  (dats m 0 c).arrAt_eq_of_cover 3 (G3 m c) (fun t _ => flushed3_eq m c t) cover3

/-- What output window 4's [1, 16777216] array ends holding. -/
def G4 (c : Dev nD) : S1x16777216.Idx → EReal := fun i => Spec.vel (A0 m c) (A1 m c) (A2 m c) (colOf i)

/-- Entry (0, q) of block `t` of window 4 sits at column `524288·t + q` of the array. -/
theorem emb_col4 (t : Fin cfg0.N) (q : Fin 524288) :
    colOf (((cfg0.win 4).blk t).view.emb (ix2 (0 : Fin 1) q)) = col t q := by
  obtain ⟨-, -, -, -, -, -, -, -, -, e1, -⟩ := idx_facts t
  refine Fin.ext ?_
  show win0_4.index t (1 : Fin 2) * 524288 + 1 * q.val = t.val * 524288 + q.val
  rw [e1]; omega

/-- What point `t` writes back through window 4 is block `t` of `G4`. -/
theorem flushed4_eq (c : Dev nD) (t : Fin cfg0.N) :
    (dats m 0 c).flushed 4 t = ((cfg0.win 4).blk t).view.read (Elt Ideal) (G4 m c) := by
  show (cfg0.win 4).cut (grid0.coords t) ((dats m 0 c).after 4 t) = _
  rw [after0_4, Outs.outs4 m c t]
  funext j
  obtain ⟨q, rfl⟩ : ∃ q : Fin 524288, j = ix2 (0 : Fin 1) q := ⟨j 1, idx_row j⟩
  refine (pay7_block m c t q).trans ?_
  rw [View.read_apply]
  show _ = Spec.vel (A0 m c) (A1 m c) (A2 m c) (colOf (((cfg0.win 4).blk t).view.emb (ix2 (0 : Fin 1) q)))
  rw [emb_col4 t q]

/-- An index of the array is in point `t`'s block of window 4 iff each coordinate is in the block's range. -/
theorem mem_blk4 (t : Fin cfg0.N) (i : S1x16777216.Idx) :
    i ∈ ((cfg0.win 4).blk t).view.set ↔ ∀ a : Fin 2, win0_4.index t a * S1x524288.size a ≤ (i a).val
      ∧ (i a).val < win0_4.index t a * S1x524288.size a + S1x524288.size a := by
  show i ∈ ((View.whole main_v2_1).slice (win0_4.rect t)).set ↔ _
  rw [View.set_slice_whole, Rect.mem_set_unit]
  exact Iff.rfl

/-- Column `n` lies in the block of point `n / 524288`: the 32 blocks tile the array. -/
theorem cover4 (i : S1x16777216.Idx) :
    ∃ t : Fin cfg0.N, (cfg0.win 4).flush t = true ∧ i ∈ ((cfg0.win 4).blk t).view.set := by
  have hi0 : (i 0).val < 1 := (i 0).isLt
  have hi1 : (i 1).val < 16777216 := (i 1).isLt
  have hN : cfg0.N = 32 := N_0
  have hb : (i 1).val / 524288 < cfg0.N := by rw [hN]; omega
  obtain ⟨-, -, -, -, -, -, -, -, e0, e1, -⟩ := idx_facts ⟨(i 1).val / 524288, hb⟩
  refine ⟨⟨(i 1).val / 524288, hb⟩, flush0_4 _, ?_⟩
  rw [mem_blk4]
  intro a
  match a with
  | ⟨0, _⟩ =>
    show win0_4.index ⟨(i 1).val / 524288, hb⟩ (0 : Fin 2) * 1 ≤ (i 0).val
      ∧ (i 0).val < win0_4.index ⟨(i 1).val / 524288, hb⟩ (0 : Fin 2) * 1 + 1
    rw [e0]; omega
  | ⟨1, _⟩ =>
    show win0_4.index ⟨(i 1).val / 524288, hb⟩ (1 : Fin 2) * 524288 ≤ (i 1).val
      ∧ (i 1).val < win0_4.index ⟨(i 1).val / 524288, hb⟩ (1 : Fin 2) * 524288 + 524288
    rw [e1]; show (i 1).val / 524288 * 524288 ≤ (i 1).val ∧ (i 1).val < (i 1).val / 524288 * 524288 + 524288; omega

/-- So window 4's array ends holding `G4`. -/
theorem final4 (c : Dev nD) : (dats m 0 c).arrAt 4 cfg0.N = G4 m c :=
  (dats m 0 c).arrAt_eq_of_cover 4 (G4 m c) (fun t _ => flushed4_eq m c t) cover4

/-- The squares block `i` contributes to running sum 5 (nothing past the grid). -/
def S5 (c : Dev nD) (i : Nat) : EReal :=
  if h : i < cfg0.N then ∑ q : Fin 524288, Spec.sqDev (A0 m c) (A1 m c) (col ⟨i, h⟩ q) else 0

/-- After point `n` the accumulator of window 5 holds the squares of blocks `0 … n`. -/
theorem acc5 (c : Dev nD) : ∀ (n : Nat) (h : n < cfg0.N),
    ((outsAt0 m c n h).2.2.1 : Vec Ideal S1x1 .f32) (ix2 (0 : Fin 1) (0 : Fin 1))
      = 0 + ∑ i ∈ Finset.range (n + 1), S5 m c i :=
  running_total_lt cfg0.N 0 (S5 m c)
    (fun n h => ((outsAt0 m c n h).2.2.1 : Vec Ideal S1x1 .f32) (ix2 (0 : Fin 1) (0 : Fin 1)))
    (fun h => by
      show ((outsAt0 m c 0 h).2.2.1 : Vec Ideal S1x1 .f32) (ix2 (0 : Fin 1) (0 : Fin 1)) = _
      rw [Outs.outs5_zero m c h]
      refine (pay8_block m c ⟨0, h⟩ _).trans ?_
      rw [Pay.pay2_apply]
      unfold S5
      rw [dif_pos h])
    (fun n h => by
      show ((outsAt0 m c (n + 1) h).2.2.1 : Vec Ideal S1x1 .f32) (ix2 (0 : Fin 1) (0 : Fin 1)) = _
      rw [Outs.outs5_succ m c n h]
      refine (pay8_block m c ⟨n + 1, h⟩ _).trans ?_
      unfold S5
      rw [dif_pos h])

/-- The 32 blocks' squares are the squares of all 16777216 columns. -/
theorem total5 (c : Dev nD) :
    0 + ∑ i ∈ Finset.range 32, S5 m c i = ∑ n : Fin 16777216, Spec.sqDev (A0 m c) (A1 m c) n := by
  rw [zero_add, Finset.sum_range, sum_blocks 32 524288 16777216 (by norm_num) (Spec.sqDev (A0 m c) (A1 m c))]
  refine Finset.sum_congr rfl fun t _ => ?_
  have ht : t.val < cfg0.N := by rw [show cfg0.N = 32 from N_0]; exact t.isLt
  unfold S5
  rw [dif_pos ht]
  rfl

/-- What output window 5's [1,1] array ends holding. -/
def G5 (c : Dev nD) : S1x1.Idx → EReal := fun _ => ∑ n : Fin 16777216, Spec.sqDev (A0 m c) (A1 m c) n

/-- The one write-back of window 5, after the last point, writes the whole sum. -/
theorem flushed5_eq (c : Dev nD) (t : Fin cfg0.N) (hf : (cfg0.win 5).flush t = true) :
    (dats m 0 c).flushed 5 t = ((cfg0.win 5).blk t).view.read (Elt Ideal) (G5 m c) := by
  have hN : cfg0.N = 32 := N_0
  have h31 : t.val + 1 = 32 := by have := (flush0_5 t).mp hf; have := t.isLt; omega
  have hlast : ((outsAt0 m c t.val t.isLt).2.2.1 : Vec Ideal S1x1 .f32) = G5 m c := by
    funext j
    obtain rfl : j = ix2 (0 : Fin 1) (0 : Fin 1) := idx_unit j
    refine (acc5 m c t.val t.isLt).trans ?_
    rw [h31, total5 m c]
    rfl
  show (cfg0.win 5).cut (grid0.coords t) ((dats m 0 c).after 5 t) = _
  rw [after0_5, hlast]
  obtain ⟨-, -, -, -, -, -, -, -, -, -, e0, e1, -⟩ := idx_facts t
  have hz' : (fun a => win0_5.index t a * main_v2_2.ty.shape.size a) = fun _ => 0 := funext fun a => by
    match a with
    | ⟨0, _⟩ => show win0_5.index t (0 : Fin 2) * 1 = 0; rw [e0]
    | ⟨1, _⟩ => show win0_5.index t (1 : Fin 2) * 1 = 0; rw [e1]
  exact (Memref.read_access_unit_zero (Elt Ideal) main_v2_2 hz' (fun a => by rw [congrFun hz' a]; simp) (G5 m c)).symm

/-- An index of the [1,1] array is in point `t`'s block of window 5 iff each coordinate is in the block's range. -/
theorem mem_blk5 (t : Fin cfg0.N) (i : S1x1.Idx) :
    i ∈ ((cfg0.win 5).blk t).view.set ↔ ∀ a : Fin 2, win0_5.index t a * S1x1.size a ≤ (i a).val
      ∧ (i a).val < win0_5.index t a * S1x1.size a + S1x1.size a := by
  show i ∈ ((View.whole main_v2_2).slice (win0_5.rect t)).set ↔ _
  rw [View.set_slice_whole, Rect.mem_set_unit]
  exact Iff.rfl

/-- The last point's block is the whole [1,1] array. -/
theorem cover5 (i : S1x1.Idx) :
    ∃ t : Fin cfg0.N, (cfg0.win 5).flush t = true ∧ i ∈ ((cfg0.win 5).blk t).view.set := by
  have hi0 : (i 0).val < 1 := (i 0).isLt
  have hi1 : (i 1).val < 1 := (i 1).isLt
  have hb : 31 < cfg0.N := by rw [show cfg0.N = 32 from N_0]; omega
  obtain ⟨-, -, -, -, -, -, -, -, -, -, e0, e1, -⟩ := idx_facts ⟨31, hb⟩
  refine ⟨⟨31, hb⟩, (flush0_5 _).mpr rfl, ?_⟩
  rw [mem_blk5]
  intro a
  match a with
  | ⟨0, _⟩ =>
    show win0_5.index ⟨31, hb⟩ (0 : Fin 2) * 1 ≤ (i 0).val ∧ (i 0).val < win0_5.index ⟨31, hb⟩ (0 : Fin 2) * 1 + 1
    rw [e0]; omega
  | ⟨1, _⟩ =>
    show win0_5.index ⟨31, hb⟩ (1 : Fin 2) * 1 ≤ (i 1).val ∧ (i 1).val < win0_5.index ⟨31, hb⟩ (1 : Fin 2) * 1 + 1
    rw [e1]; omega

/-- So window 5's array ends holding `G5`. -/
theorem final5 (c : Dev nD) : (dats m 0 c).arrAt 5 cfg0.N = G5 m c :=
  (dats m 0 c).arrAt_eq_of_cover 5 (G5 m c) (flushed5_eq m c) cover5

/-- The squares block `i` contributes to running sum 6 (nothing past the grid). -/
def S6 (c : Dev nD) (i : Nat) : EReal :=
  if h : i < cfg0.N then ∑ q : Fin 524288, Spec.sqMean (A0 m c) (col ⟨i, h⟩ q) else 0

/-- After point `n` the accumulator of window 6 holds the squares of blocks `0 … n`. -/
theorem acc6 (c : Dev nD) : ∀ (n : Nat) (h : n < cfg0.N),
    ((outsAt0 m c n h).2.2.2 : Vec Ideal S1x1 .f32) (ix2 (0 : Fin 1) (0 : Fin 1))
      = 0 + ∑ i ∈ Finset.range (n + 1), S6 m c i :=
  running_total_lt cfg0.N 0 (S6 m c)
    (fun n h => ((outsAt0 m c n h).2.2.2 : Vec Ideal S1x1 .f32) (ix2 (0 : Fin 1) (0 : Fin 1)))
    (fun h => by
      show ((outsAt0 m c 0 h).2.2.2 : Vec Ideal S1x1 .f32) (ix2 (0 : Fin 1) (0 : Fin 1)) = _
      rw [Outs.outs6_zero m c h]
      refine (pay1_block m c ⟨0, h⟩ _).trans ?_
      rw [Pay.pay3_apply]
      unfold S6
      rw [dif_pos h])
    (fun n h => by
      show ((outsAt0 m c (n + 1) h).2.2.2 : Vec Ideal S1x1 .f32) (ix2 (0 : Fin 1) (0 : Fin 1)) = _
      rw [Outs.outs6_succ m c n h]
      refine (pay1_block m c ⟨n + 1, h⟩ _).trans ?_
      unfold S6
      rw [dif_pos h])

/-- The 32 blocks' squares are the squares of all 16777216 columns. -/
theorem total6 (c : Dev nD) :
    0 + ∑ i ∈ Finset.range 32, S6 m c i = ∑ n : Fin 16777216, Spec.sqMean (A0 m c) n := by
  rw [zero_add, Finset.sum_range, sum_blocks 32 524288 16777216 (by norm_num) (Spec.sqMean (A0 m c))]
  refine Finset.sum_congr rfl fun t _ => ?_
  have ht : t.val < cfg0.N := by rw [show cfg0.N = 32 from N_0]; exact t.isLt
  unfold S6
  rw [dif_pos ht]
  rfl

/-- What output window 6's [1,1] array ends holding. -/
def G6 (c : Dev nD) : S1x1.Idx → EReal := fun _ => ∑ n : Fin 16777216, Spec.sqMean (A0 m c) n

/-- The one write-back of window 6, after the last point, writes the whole sum. -/
theorem flushed6_eq (c : Dev nD) (t : Fin cfg0.N) (hf : (cfg0.win 6).flush t = true) :
    (dats m 0 c).flushed 6 t = ((cfg0.win 6).blk t).view.read (Elt Ideal) (G6 m c) := by
  have hN : cfg0.N = 32 := N_0
  have h31 : t.val + 1 = 32 := by have := (flush0_6 t).mp hf; have := t.isLt; omega
  have hlast : ((outsAt0 m c t.val t.isLt).2.2.2 : Vec Ideal S1x1 .f32) = G6 m c := by
    funext j
    obtain rfl : j = ix2 (0 : Fin 1) (0 : Fin 1) := idx_unit j
    refine (acc6 m c t.val t.isLt).trans ?_
    rw [h31, total6 m c]
    rfl
  show (cfg0.win 6).cut (grid0.coords t) ((dats m 0 c).after 6 t) = _
  rw [after0_6, hlast]
  obtain ⟨-, -, -, -, -, -, -, -, -, -, -, -, e0, e1⟩ := idx_facts t
  have hz' : (fun a => win0_6.index t a * main_v2_3.ty.shape.size a) = fun _ => 0 := funext fun a => by
    match a with
    | ⟨0, _⟩ => show win0_6.index t (0 : Fin 2) * 1 = 0; rw [e0]
    | ⟨1, _⟩ => show win0_6.index t (1 : Fin 2) * 1 = 0; rw [e1]
  exact (Memref.read_access_unit_zero (Elt Ideal) main_v2_3 hz' (fun a => by rw [congrFun hz' a]; simp) (G6 m c)).symm

/-- An index of the [1,1] array is in point `t`'s block of window 6 iff each coordinate is in the block's range. -/
theorem mem_blk6 (t : Fin cfg0.N) (i : S1x1.Idx) :
    i ∈ ((cfg0.win 6).blk t).view.set ↔ ∀ a : Fin 2, win0_6.index t a * S1x1.size a ≤ (i a).val
      ∧ (i a).val < win0_6.index t a * S1x1.size a + S1x1.size a := by
  show i ∈ ((View.whole main_v2_3).slice (win0_6.rect t)).set ↔ _
  rw [View.set_slice_whole, Rect.mem_set_unit]
  exact Iff.rfl

/-- The last point's block is the whole [1,1] array. -/
theorem cover6 (i : S1x1.Idx) :
    ∃ t : Fin cfg0.N, (cfg0.win 6).flush t = true ∧ i ∈ ((cfg0.win 6).blk t).view.set := by
  have hi0 : (i 0).val < 1 := (i 0).isLt
  have hi1 : (i 1).val < 1 := (i 1).isLt
  have hb : 31 < cfg0.N := by rw [show cfg0.N = 32 from N_0]; omega
  obtain ⟨-, -, -, -, -, -, -, -, -, -, -, -, e0, e1⟩ := idx_facts ⟨31, hb⟩
  refine ⟨⟨31, hb⟩, (flush0_6 _).mpr rfl, ?_⟩
  rw [mem_blk6]
  intro a
  match a with
  | ⟨0, _⟩ =>
    show win0_6.index ⟨31, hb⟩ (0 : Fin 2) * 1 ≤ (i 0).val ∧ (i 0).val < win0_6.index ⟨31, hb⟩ (0 : Fin 2) * 1 + 1
    rw [e0]; omega
  | ⟨1, _⟩ =>
    show win0_6.index ⟨31, hb⟩ (1 : Fin 2) * 1 ≤ (i 1).val ∧ (i 1).val < win0_6.index ⟨31, hb⟩ (1 : Fin 2) * 1 + 1
    rw [e1]; omega

/-- So window 6's array ends holding `G6`. -/
theorem final6 (c : Dev nD) : (dats m 0 c).arrAt 6 cfg0.N = G6 m c :=
  (dats m 0 c).arrAt_eq_of_cover 6 (G6 m c) (flushed6_eq m c) cover6

end Cert.KernelIdeal.Final

end
-- ==== Proof.Epilogue.lean ====
import Idealize.ShloMosaic.PureOps

/-! The scalar epilogue both programs apply to the two squared norms `D` (of the deviation) and `C` (of the mean)
    and the two scalar arguments: `dev_norm = sqrt D`, the consistency loss `c · dev_norm`, and the identity
    strength — a fast gate `min(a₃·c + (c / (1 + 5 a₃)) · min(1, sqrt C), c)`, a slow gate
    `min(a₄ + (c / (1 + 5 a₄)) · (1 + 15 · clip(1 − dev_norm, 0, 1)²), 1)`, their sum clamped at 1.
    Stated once, at any float instance, in the operations' own order, so that neither side ever opens it. -/

noncomputable section

open Idealize.ShloMosaic

namespace Cert.Epilogue

variable {F : FTy → Type} [FloatOps F]

/-- The rank-0 shape. -/
abbrev Sc : Shape := ⟨0, ![]⟩

/-- `dev_norm`. -/
def normOf (D : FVec F Sc .f32) : FVec F Sc .f32 := Host.sqrt D

/-- The consistency loss. -/
def lossOf (D : FVec F Sc .f32) : FVec F Sc .f32 := mulf (constant Sc .f32 0x3DCCCCCD#32) (Host.sqrt D)

/-- The identity strength. -/
def strengthOf (D C a3 a4 : FVec F Sc .f32) : FVec F Sc .f32 :=
  minimumf (addf
    (minimumf (addf (mulf a3 (constant Sc .f32 0x3F7FDF3B#32))
      (mulf (Host.divf (constant Sc .f32 0x3C23D70A#32) (addf (constant Sc .f32 0x3F800000#32) (mulf a3 (constant Sc .f32 0x40A00000#32))))
        (minimumf (constant Sc .f32 0x3F800000#32) (Host.sqrt C))))
      (constant Sc .f32 0x3F333333#32))
    (minimumf (addf a4
      (mulf (Host.divf (constant Sc .f32 0x3A83126F#32) (addf (constant Sc .f32 0x3F800000#32) (mulf a4 (constant Sc .f32 0x40A00000#32))))
        (addf (constant Sc .f32 0x3F800000#32) (mulf (constant Sc .f32 0x41700000#32)
          (mulf (minimumf (id (constant Sc .f32 0x3F800000#32)) (maximumf (id (constant Sc .f32 0x00000000#32)) (subf (constant Sc .f32 0x3F800000#32) (Host.sqrt D))))
            (minimumf (id (constant Sc .f32 0x3F800000#32)) (maximumf (id (constant Sc .f32 0x00000000#32)) (subf (constant Sc .f32 0x3F800000#32) (Host.sqrt D)))))))))
      (constant Sc .f32 0x3F800000#32)))
    (constant Sc .f32 0x3F800000#32)

end Cert.Epilogue

end
-- ==== Proof.Tail.lean ====
import proofs.«179006_j23270132810240_1_alg».proof.Proof.Gen.KernelIdeal.Frame
import Idealize.ShloMosaic.Lib.Pipeline.Value
import Idealize.ShloMosaic.Lib.Tactic
import proofs.«179006_j23270132810240_1_alg».proof.Proof.Epilogue
import Idealize.ShloMosaic.Lib.StableHlo.Run

noncomputable section

open Idealize.ShloMosaic Idealize.ShloMosaic.TcCoe Idealize.SL.Sem
open Idealize.ShloMosaic.Pipeline (Dat)

/-! The host lines after the region, read back over ANY contents `W` of the buffers they start from: the two
    [1, 16777216] results are cast to rank 1, the two [1,1] sums to rank 0, and the scalar epilogue is applied. -/

namespace Cert.KernelIdeal.Tail

open Cert.KernelIdeal Cert.KernelIdeal.Gen Cert.Epilogue Idealize.ShloMosaic.StableHlo

variable {F : FTy → Type} [FloatOps F]

/-- The updated narrative, rank 1. -/
theorem tail_v3 (W : Valuation τ sig (Elt F)) :
    StableHlo.after (List.flatten [hostOps1, hostOps1_1, hostOps1_2]) W (Proc.devRef .tc main_v3)
      = shapeCast S16777216 (W (Proc.devRef .tc main_v2_0) : S1x16777216.Idx → Elt F .f32) shapeCasts_S1x16777216_S16777216 := by
  simp only [hostOps1, hostOps1_1, hostOps1_2, List.flatten_cons, List.flatten_nil, List.append_nil, List.cons_append, List.nil_append]
  after_results_simp
  rfl

/-- The velocity, rank 1. -/
theorem tail_v4 (W : Valuation τ sig (Elt F)) :
    StableHlo.after (List.flatten [hostOps1, hostOps1_1, hostOps1_2]) W (Proc.devRef .tc main_v4)
      = shapeCast S16777216 (W (Proc.devRef .tc main_v2_1) : S1x16777216.Idx → Elt F .f32) shapeCasts_S1x16777216_S16777216 := by
  simp only [hostOps1, hostOps1_1, hostOps1_2, List.flatten_cons, List.flatten_nil, List.append_nil, List.cons_append, List.nil_append]
  after_results_simp
  rfl

/-- `dev_norm`: the square root of the first [1,1] sum. -/
theorem tail_v6 (W : Valuation τ sig (Elt F)) :
    StableHlo.after (List.flatten [hostOps1, hostOps1_1, hostOps1_2]) W (Proc.devRef .tc main_v6)
      = normOf (shapeCast S_ (W (Proc.devRef .tc main_v2_2) : S1x1.Idx → Elt F .f32) shapeCasts_S1x1_S_) := by
  simp only [hostOps1, hostOps1_1, hostOps1_2, List.flatten_cons, List.flatten_nil, List.append_nil, List.cons_append, List.nil_append]
  after_results_simp
  rfl

/-- The consistency loss. -/
theorem tail_v9 (W : Valuation τ sig (Elt F)) :
    StableHlo.after (List.flatten [hostOps1, hostOps1_1, hostOps1_2]) W (Proc.devRef .tc main_v9)
      = lossOf (shapeCast S_ (W (Proc.devRef .tc main_v2_2) : S1x1.Idx → Elt F .f32) shapeCasts_S1x1_S_) := by
  simp only [hostOps1, hostOps1_1, hostOps1_2, List.flatten_cons, List.flatten_nil, List.append_nil, List.cons_append, List.nil_append]
  after_results_simp
  rfl

/-- The identity strength. -/
theorem tail_v30 (W : Valuation τ sig (Elt F)) :
    StableHlo.after (List.flatten [hostOps1, hostOps1_1, hostOps1_2]) W (Proc.devRef .tc main_v30)
      = strengthOf (shapeCast S_ (W (Proc.devRef .tc main_v2_2) : S1x1.Idx → Elt F .f32) shapeCasts_S1x1_S_)
          (shapeCast S_ (W (Proc.devRef .tc main_v2_3) : S1x1.Idx → Elt F .f32) shapeCasts_S1x1_S_)
          (W (Proc.devRef .tc main_arg3)) (W (Proc.devRef .tc main_arg4)) := by
  simp only [hostOps1, hostOps1_1, hostOps1_2, List.flatten_cons, List.flatten_nil, List.append_nil, List.cons_append, List.nil_append]
  after_results_simp
  first | rfl | (simp only [cast_eq]; rfl)

end Cert.KernelIdeal.Tail

end
-- ==== Proof.KernelRun.lean ====
import proofs.«179006_j23270132810240_1_alg».proof.Proof.Gen.KernelIdeal.Frame
import Idealize.ShloMosaic.Lib.Pipeline.Value
import Idealize.ShloMosaic.Lib.Tactic
import proofs.«179006_j23270132810240_1_alg».proof.Proof.Final
import proofs.«179006_j23270132810240_1_alg».proof.Proof.Tail

noncomputable section

open Idealize.ShloMosaic Idealize.ShloMosaic.TcCoe Idealize.SL.Sem
open Idealize.ShloMosaic.Pipeline (Dat)

/-! The idealized kernel's whole run over the extended reals: the region leaves the four arrays of the previous
    module, the host lines after it cast them to the results' ranks and apply the scalar epilogue, so the five
    results are the specification's functions of the ARGUMENT arrays; the arguments end unchanged. -/

namespace Cert.KernelIdeal.KRun

open scoped BigOperators
open Cert.KernelIdeal Cert.KernelIdeal.Gen Idealize.ShloMosaic.ValueIdx
open Cert.KernelIdeal.BlockSpec Cert.KernelIdeal.Final Cert.Epilogue

variable (m : (ℓ : Loc nD τ sig) → Buf (Elt Ideal) ℓ) (ρ : Dev nD → PrngReg)

/-- What the host lines after the region start from: the region-entry contents, the pipeline's arrays as the
    region leaves them. -/
abbrev W (c : Dev nD) : Valuation τ sig (Elt Ideal) :=
  Pipeline.withArrays (cfgs 0).spec c (V0 m c) fun w => (dats m 0 c).arrAt w (cfgs 0).N

theorem W_v2_0 (c : Dev nD) : (W m c (Proc.devRef .tc main_v2_0) : S1x16777216.Idx → EReal) = G3 m c :=
  (Pipeline.withArrays_arr spec0 launch0.win.arr_inj c _ _ 3).trans (final3 m c)
theorem W_v2_1 (c : Dev nD) : (W m c (Proc.devRef .tc main_v2_1) : S1x16777216.Idx → EReal) = G4 m c :=
  (Pipeline.withArrays_arr spec0 launch0.win.arr_inj c _ _ 4).trans (final4 m c)
theorem W_v2_2 (c : Dev nD) : (W m c (Proc.devRef .tc main_v2_2) : S1x1.Idx → EReal) = G5 m c :=
  (Pipeline.withArrays_arr spec0 launch0.win.arr_inj c _ _ 5).trans (final5 m c)
theorem W_v2_3 (c : Dev nD) : (W m c (Proc.devRef .tc main_v2_3) : S1x1.Idx → EReal) = G6 m c :=
  (Pipeline.withArrays_arr spec0 launch0.win.arr_inj c _ _ 6).trans (final6 m c)
theorem W_arg3 (c : Dev nD) : W m c (Proc.devRef .tc main_arg3) = m ((c : Thread nD τ).loc main_arg3) :=
  (Pipeline.withArrays_of_ne _ c (V0 m c) _ main_arg3 (by exact (by decide : ∀ w, Pipeline.arrRef spec0 w ≠ main_arg3))).trans
    (V_main_arg3 m c)
theorem W_arg4 (c : Dev nD) : W m c (Proc.devRef .tc main_arg4) = m ((c : Thread nD τ).loc main_arg4) :=
  (Pipeline.withArrays_of_ne _ c (V0 m c) _ main_arg4 (by exact (by decide : ∀ w, Pipeline.arrRef spec0 w ≠ main_arg4))).trans
    (V_main_arg4 m c)

/-- The two [1,1] sums cast to rank 0. -/
theorem cast5 (c : Dev nD) : shapeCast S_ (G5 m c) shapeCasts_S1x1_S_ = Spec.sumsqDev (A0 m c) (A1 m c) :=
  funext fun _ => rfl
theorem cast6 (c : Dev nD) : shapeCast S_ (G6 m c) shapeCasts_S1x1_S_ = Spec.sumsqMean (A0 m c) :=
  funext fun _ => rfl

/-- The first result: the updated narrative. -/
theorem res_v3 (c : Dev nD) : Pipeline.afterTail₀ cfgs (dats m) 0 (V0 m) [hostOps1, hostOps1_1, hostOps1_2] c main_v3 = Spec.newNarrArr (A0 m c) (A1 m c) (A2 m c) := by
  unfold Pipeline.afterTail₀
  refine (Tail.tail_v3 (W m c)).trans ?_
  rw [W_v2_0]
  funext i
  obtain ⟨n, rfl⟩ : ∃ n : Fin 16777216, i = ix1 n := ⟨i 0, eq_ix1 i⟩
  refine (shapeCast_1a_a_apply (G3 m c) shapeCasts_S1x16777216_S16777216 n).trans ?_
  rfl

/-- The second result: the velocity. -/
theorem res_v4 (c : Dev nD) : Pipeline.afterTail₀ cfgs (dats m) 0 (V0 m) [hostOps1, hostOps1_1, hostOps1_2] c main_v4 = Spec.velArr (A0 m c) (A1 m c) (A2 m c) := by
  unfold Pipeline.afterTail₀
  refine (Tail.tail_v4 (W m c)).trans ?_
  rw [W_v2_1]
  funext i
  obtain ⟨n, rfl⟩ : ∃ n : Fin 16777216, i = ix1 n := ⟨i 0, eq_ix1 i⟩
  refine (shapeCast_1a_a_apply (G4 m c) shapeCasts_S1x16777216_S16777216 n).trans ?_
  rfl

/-- The third result: the consistency loss. -/
theorem res_v9 (c : Dev nD) : Pipeline.afterTail₀ cfgs (dats m) 0 (V0 m) [hostOps1, hostOps1_1, hostOps1_2] c main_v9 = lossOf (F := Ideal) (Spec.sumsqDev (A0 m c) (A1 m c)) := by
  unfold Pipeline.afterTail₀
  refine (Tail.tail_v9 (W m c)).trans ?_
  rw [W_v2_2, cast5]

/-- The fourth result: the identity strength. -/
theorem res_v30 (c : Dev nD) : Pipeline.afterTail₀ cfgs (dats m) 0 (V0 m) [hostOps1, hostOps1_1, hostOps1_2] c main_v30
    = strengthOf (F := Ideal) (Spec.sumsqDev (A0 m c) (A1 m c)) (Spec.sumsqMean (A0 m c))
        (m ((c : Thread nD τ).loc main_arg3)) (m ((c : Thread nD τ).loc main_arg4)) := by
  unfold Pipeline.afterTail₀
  refine (Tail.tail_v30 (W m c)).trans ?_
  rw [W_v2_2, W_v2_3, cast5, cast6, W_arg3, W_arg4]

/-- The fifth result: `dev_norm`. -/
theorem res_v6 (c : Dev nD) : Pipeline.afterTail₀ cfgs (dats m) 0 (V0 m) [hostOps1, hostOps1_1, hostOps1_2] c main_v6 = normOf (F := Ideal) (Spec.sumsqDev (A0 m c) (A1 m c)) := by
  unfold Pipeline.afterTail₀
  refine (Tail.tail_v6 (W m c)).trans ?_
  rw [W_v2_2, cast5]

/-- The run, read: every weakly fair execution terminates with the five results at the specification's functions
    of the argument arrays and the arguments unchanged. -/
theorem run : θ_run defs (onTc (τ := τ) (main (F := Ideal))) ⟨m, fun _ => 0, ρ⟩ fun r => ∀ c : Dev nD,
      r.2.mem ((c.tc : Thread nD τ).loc main_v3) = Spec.newNarrArr (A0 m c) (A1 m c) (A2 m c)
      ∧ r.2.mem ((c.tc : Thread nD τ).loc main_v4) = Spec.velArr (A0 m c) (A1 m c) (A2 m c)
      ∧ r.2.mem ((c.tc : Thread nD τ).loc main_v9) = lossOf (F := Ideal) (Spec.sumsqDev (A0 m c) (A1 m c))
      ∧ r.2.mem ((c.tc : Thread nD τ).loc main_v30)
          = strengthOf (F := Ideal) (Spec.sumsqDev (A0 m c) (A1 m c)) (Spec.sumsqMean (A0 m c))
              (m ((c : Thread nD τ).loc main_arg3)) (m ((c : Thread nD τ).loc main_arg4))
      ∧ r.2.mem ((c.tc : Thread nD τ).loc main_v6) = normOf (F := Ideal) (Spec.sumsqDev (A0 m c) (A1 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨
      ((h c).2 main_v3 (Pipeline.mem_restRefs_of main_v3 (by decide) (by decide))).trans (res_v3 m c),
      ((h c).2 main_v4 (Pipeline.mem_restRefs_of main_v4 (by decide) (by decide))).trans (res_v4 m c),
      ((h c).2 main_v9 (Pipeline.mem_restRefs_of main_v9 (by decide) (by decide))).trans (res_v9 m c),
      ((h c).2 main_v30 (Pipeline.mem_restRefs_of main_v30 (by decide) (by decide))).trans (res_v30 m c),
      ((h c).2 main_v6 (Pipeline.mem_restRefs_of main_v6 (by decide) (by decide))).trans (res_v6 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KRun

end
-- ==== Proof.RefSide.lean ====
import proofs.«179006_j23270132810240_1_alg».proof.Proof.Gen.ReferenceIdeal.Read
import proofs.«179006_j23270132810240_1_alg».proof.Proof.Spec
import proofs.«179006_j23270132810240_1_alg».proof.Proof.Epilogue
import proofs.«179006_j23270132810240_1_alg».proof.Proof.LibTileSum
import Idealize.ShloMosaic.Lib.ValueIdx
import Idealize.ShloMosaic.PureOps.Ideal.Laws

/-! The reference's five results over the extended reals are the specification's: its batch mean is the same
    four-term sum divided by four (the host's sum starts from the zero word, which adds nothing), the two rank-1
    results are the per-column formulas, each norm is the square root of a sum over all 16777216 columns, and the
    scalar results are the shared epilogue of those two sums. -/

noncomputable section

open scoped BigOperators
open Idealize.ShloMosaic Idealize.ShloMosaic.ValueIdx

namespace Cert.RefSide

open Cert.ReferenceIdeal Cert.ReferenceIdeal.Read Cert.LibTileSum Cert.Epilogue

/-- The reference's batch mean at column `n`. -/
theorem mean_apply (x0 : (⟨S4x16777216, .f32⟩ : BufTy).Contents (Elt Ideal)) (n : Fin 16777216) :
    val_main_v2 (F := Ideal) x0 (ix1 n) = Spec.mean x0 n := by
  rw [val_main_v2_apply, val_main_v0_apply, val_main_v1_apply, val_main_cst_apply, val_main_cst_0_apply]
  unfold Spec.mean
  simp only [Ideal.hostDivf_def, Ideal.ofBits_def, Ideal.ofBits_zero_f32, zero_add]
  refine congrArg (fun z => Ideal.div z (Ideal.ofBits .f32 0x40800000#32)) (Finset.sum_congr rfl fun k _ => ?_)
  exact congrArg x0 (funext fun a => Fin.ext (by match a with | ⟨0, _⟩ => rfl | ⟨1, _⟩ => rfl))

/-- The reference's updated narrative at column `n`. -/
theorem newNarr_apply (x0 : (⟨S4x16777216, .f32⟩ : BufTy).Contents (Elt Ideal)) (x1 x2 : (⟨S16777216, .f32⟩ : BufTy).Contents (Elt Ideal)) (n : Fin 16777216) :
    val_main_v11 (F := Ideal) x0 x1 x2 (ix1 n) = Spec.newNarr x0 x1 x2 n := by
  rw [val_main_v11_apply, val_main_v10_apply, val_main_v7_apply, val_main_v6_apply, val_main_cst_2_apply,
    val_main_v9_apply, val_main_v8_apply, val_main_cst_3_apply, mean_apply]
  simp only [Ideal.addf_def, Ideal.mulf_def, Ideal.ofBits_def]
  rfl

/-- The reference's first result is the updated narrative. -/
theorem v11_eq (x0 : (⟨S4x16777216, .f32⟩ : BufTy).Contents (Elt Ideal)) (x1 x2 : (⟨S16777216, .f32⟩ : BufTy).Contents (Elt Ideal)) : val_main_v11 (F := Ideal) x0 x1 x2 = Spec.newNarrArr x0 x1 x2 := by
  funext i
  obtain ⟨n, rfl⟩ : ∃ n : Fin 16777216, i = ix1 n := ⟨i 0, eq_ix1 i⟩
  exact newNarr_apply x0 x1 x2 n

/-- The reference's second result is the velocity. -/
theorem v12_eq (x0 : (⟨S4x16777216, .f32⟩ : BufTy).Contents (Elt Ideal)) (x1 x2 : (⟨S16777216, .f32⟩ : BufTy).Contents (Elt Ideal)) : val_main_v12 (F := Ideal) x0 x1 x2 = Spec.velArr x0 x1 x2 := by
  funext i
  obtain ⟨n, rfl⟩ : ∃ n : Fin 16777216, i = ix1 n := ⟨i 0, eq_ix1 i⟩
  rw [val_main_v12_apply, newNarr_apply]
  simp only [Ideal.subf_def]
  rfl

/-- The sum under the reference's first norm is the squared deviations of all columns. -/
theorem sumsqDev_eq (x0 : (⟨S4x16777216, .f32⟩ : BufTy).Contents (Elt Ideal)) (x1 : (⟨S16777216, .f32⟩ : BufTy).Contents (Elt Ideal)) : val_main_call0_v1 (F := Ideal) x0 x1 = Spec.sumsqDev x0 x1 := by
  funext i
  rw [val_main_call0_v1_apply, val_main_call0_cst_apply]
  simp only [Ideal.ofBits_def, Ideal.ofBits_zero_f32, zero_add]
  rw [sum_idx1]
  unfold Spec.sumsqDev
  refine Finset.sum_congr rfl fun n _ => ?_
  rw [val_main_call0_v0_apply, val_main_v3_apply, mean_apply]
  simp only [Ideal.mulf_def, Ideal.subf_def]
  rfl

/-- The sum under the reference's second norm is the squared means of all columns. -/
theorem sumsqMean_eq (x0 : (⟨S4x16777216, .f32⟩ : BufTy).Contents (Elt Ideal)) : val_main_call1_v1 (F := Ideal) x0 = Spec.sumsqMean x0 := by
  funext i
  rw [val_main_call1_v1_apply, val_main_call1_cst_apply]
  simp only [Ideal.ofBits_def, Ideal.ofBits_zero_f32, zero_add]
  rw [sum_idx1]
  unfold Spec.sumsqMean
  refine Finset.sum_congr rfl fun n _ => ?_
  rw [val_main_call1_v0_apply, mean_apply]
  simp only [Ideal.mulf_def]
  rfl

/-- The reference's `dev_norm`. -/
theorem v4_eq (x0 : (⟨S4x16777216, .f32⟩ : BufTy).Contents (Elt Ideal)) (x1 : (⟨S16777216, .f32⟩ : BufTy).Contents (Elt Ideal)) : val_main_v4 (F := Ideal) x0 x1 = normOf (F := Ideal) (Spec.sumsqDev x0 x1) := by
  rw [← sumsqDev_eq]; rfl

/-- The reference's consistency loss. -/
theorem v5_eq (x0 : (⟨S4x16777216, .f32⟩ : BufTy).Contents (Elt Ideal)) (x1 : (⟨S16777216, .f32⟩ : BufTy).Contents (Elt Ideal)) : val_main_v5 (F := Ideal) x0 x1 = lossOf (F := Ideal) (Spec.sumsqDev x0 x1) := by
  rw [← sumsqDev_eq]; rfl

/-- The reference's identity strength. -/
theorem v34_eq (x0 : (⟨S4x16777216, .f32⟩ : BufTy).Contents (Elt Ideal)) (x1 : (⟨S16777216, .f32⟩ : BufTy).Contents (Elt Ideal)) (x3 x4 : (⟨S_, .f32⟩ : BufTy).Contents (Elt Ideal)) :
    val_main_v34 (F := Ideal) x0 x1 x3 x4 = strengthOf (F := Ideal) (Spec.sumsqDev x0 x1) (Spec.sumsqMean x0) x3 x4 := by
  rw [← sumsqDev_eq, ← sumsqMean_eq]; rfl

end Cert.RefSide

end
-- ==== Proof.lean ====
/- The certificate: an exponential-moving-average update of a 16777216-entry narrative, with two squared norms and a
   scalar gate, computed by one fused kernel that streams the columns in 32 blocks of 524288, against the plain
   array formulation.

   Over the extended reals both programs compute, per column `n`, the batch mean `μₙ = (Σ₄ rows) / 4`, the updated
   narrative `narrₙ·c₁ + μₙ·c₂ + tonicₙ` and the velocity (that minus `narrₙ`) — the same operations on the same
   binary constants, in the same order, so no law of arithmetic is needed there — and the two squared norms
   `Σₙ (μₙ − narrₙ)²` and `Σₙ μₙ²`. The kernel accumulates each norm block by block, from a stored zero:
   `((0 + S₀) + S₁) + … + S₃₁` with `Sₜ` the sum over block `t`'s 524288 columns; the reference sums all columns at
   once from zero. The two agree because addition of extended reals is commutative and associative (a sum over
   `32 · 524288` positions is the sum over the 32 consecutive blocks of the blocks' sums), with no use of finiteness.
   The scalar epilogue (square roots, the consistency loss, the fast and slow gates) is the same term on both sides.

   The kernel's run is read off the generated frame run: what each case of the body leaves in the staging buffers
   (Pieces, Outs), the payloads at an index (PayIdeal), the blocks' places in the arrays (Blocks, BlockSpec), the
   four arrays after the region (Final), the host lines after it (Tail, KernelRun). The reference's run is the
   generated one, read at an index (RefSide). -/
import proofs.«179006_j23270132810240_1_alg».proof.Defs
import proofs.«179006_j23270132810240_1_alg».proof.Proof.Gen.Kernel
import proofs.«179006_j23270132810240_1_alg».proof.Proof.Gen.Kernel.Skeleton
import proofs.«179006_j23270132810240_1_alg».proof.Proof.Gen.Kernel.Launch
import proofs.«179006_j23270132810240_1_alg».proof.Proof.Gen.Kernel.Points
import proofs.«179006_j23270132810240_1_alg».proof.Proof.Gen.Kernel.Frame
import proofs.«179006_j23270132810240_1_alg».proof.Proof.Gen.KernelIdeal
import proofs.«179006_j23270132810240_1_alg».proof.Proof.Gen.KernelIdeal.Skeleton
import proofs.«179006_j23270132810240_1_alg».proof.Proof.Gen.KernelIdeal.Launch
import proofs.«179006_j23270132810240_1_alg».proof.Proof.Gen.KernelIdeal.Points
import proofs.«179006_j23270132810240_1_alg».proof.Proof.Gen.KernelIdeal.Frame
import proofs.«179006_j23270132810240_1_alg».proof.Proof.Gen.ReferenceIdeal
import proofs.«179006_j23270132810240_1_alg».proof.Proof.Gen.ReferenceIdeal.Run
import proofs.«179006_j23270132810240_1_alg».proof.Proof.Gen.ReferenceIdeal.Read
import proofs.«179006_j23270132810240_1_alg».proof.Proof.Gen.Pre_finite_inputs
import proofs.«179006_j23270132810240_1_alg».proof.Proof.KernelRun
import proofs.«179006_j23270132810240_1_alg».proof.Proof.RefSide
import Idealize.ShloMosaic.Adequacy
import Idealize.ShloMosaic.Init

noncomputable section

namespace Cert.Proof

open Idealize.ShloMosaic Idealize.SL.Sem

/-- The printed kernel runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the results dropped. -/
theorem frame_ri : Cert.frame_ReferenceIdeal := fun m ρ _ =>
  (θ_run Cert.ReferenceIdeal.defs _ _).mono (fun _ h c => (h c).2.2.2.2.2)
    (Cert.ReferenceIdeal.Value.run (F := Ideal) m ρ)

/-- The ideal pass rewrote nothing. -/
theorem preserves : Cert.preserves_Kernel_KernelIdeal := trivial

/-- Over the extended reals, from memories agreeing on the arguments, both programs end with the same five results:
    the specification's functions of the argument arrays. -/
theorem algebraic : Cert.algebraic_KernelIdeal_ReferenceIdeal := by
  intro m ρ m' ρ' _ hagree
  refine ⟨_, _, _, _, _, Cert.KernelIdeal.KRun.run m ρ, ?_⟩
  refine (θ_run Cert.ReferenceIdeal.defs _ _).mono (fun _ h c => ?_)
    (Cert.ReferenceIdeal.Value.run (F := Ideal) m' ρ')
  obtain ⟨h0, h1, h2, h3, h4, hargs⟩ := h c
  obtain ⟨e0, e1, e2, e3, e4⟩ := hagree c
  refine ⟨h0.trans ?_, h1.trans ?_, h2.trans ?_, h3.trans ?_, h4.trans ?_, hargs⟩
  · rw [Cert.ReferenceIdeal.Read.val_main_v11_eq, Cert.RefSide.v11_eq, e0, e1, e2]
  · rw [Cert.ReferenceIdeal.Read.val_main_v12_eq, Cert.RefSide.v12_eq, e0, e1, e2]
  · rw [Cert.ReferenceIdeal.Read.val_main_v5_eq, Cert.RefSide.v5_eq, e0, e1]
  · rw [Cert.ReferenceIdeal.Read.val_main_v34_eq, Cert.RefSide.v34_eq, e0, e1, e3, e4]
  · rw [Cert.ReferenceIdeal.Read.val_main_v4_eq, Cert.RefSide.v4_eq, e0, e1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
